-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x32 .f32) (main_arg6 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 89
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .bf16⟩
  | .hbm, ⟨50, _⟩ => ⟨S128x64, .bf16⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S100000x64, .f32⟩
  | .hbm, ⟨69, _⟩ => ⟨S100000x64, .bf16⟩
  | .hbm, ⟨70, _⟩ => ⟨S64x32, .bf16⟩
  | .hbm, ⟨71, _⟩ => ⟨S100000x32, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x32, .f32⟩
  | .hbm, ⟨81, _⟩ => ⟨S1700000x1, .f32⟩
  | .hbm, ⟨82, _⟩ => ⟨S1700000x32, .f32⟩
  | .hbm, ⟨83, _⟩ => ⟨S1700000x32, .f32⟩
  | .hbm, ⟨84, _⟩ => ⟨S_, .f32⟩
  | .hbm, ⟨85, _⟩ => ⟨S100000x32, .f32⟩
  | .hbm, ⟨86, _⟩ => ⟨S1700000x1, .i32⟩
  | .hbm, ⟨87, _⟩ => ⟨S100000x32, .f32⟩
  | .hbm, ⟨88, _⟩ => ⟨S100000x32, .f32⟩
  | .local _ .vmem, ⟨0, _⟩ => ⟨S10000x128, .bf16⟩
  | .local _ .vmem, ⟨1, _⟩ => ⟨S10000x128, .bf16⟩
  | .local _ .vmem, ⟨2, _⟩ => ⟨S128x64, .bf16⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .bf16⟩
  | .local _ .vmem, ⟨11, _⟩ => ⟨S10000x64, .bf16⟩
  | .local _ .vmem, ⟨12, _⟩ => ⟨S64x32, .bf16⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S32, .f32⟩
  | .local _ .vmem, ⟨18, _⟩ => ⟨S10000x32, .f32⟩
  | .local _ .vmem, ⟨19, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S10000x32_S10000x32 : S10000x32.ShapeCasts S10000x32
  inb_S32_S32_0 : ∀ a, (![0] : Fin 1 → Nat) a + S32.size a ≤ S32.size a
  h_S32 : 0 < S32.numel
  shapeCasts_S32_S1x32 : S32.ShapeCasts S1x32
  shapeCasts_S1x32_S1x32 : S1x32.ShapeCasts S1x32
  broadcasts_S1x32_S10000x32 : S1x32.Broadcasts S10000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .bf16 = 32 ∨ (Rect.block (s := S100000x64) S10000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .bf16 = 32 ∨ (Rect.block (s := S64x32) S64x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32.size a ≤ S32.size a
  hwx3_1 : ∀ i : grid3.Coords, EltTy.bits .f32 = 32 ∨ (Rect.block (s := S32) S32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_v32) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .i1⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x32, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x32, .f32⟩
  | .hbm, ⟨89, _⟩ => ⟨S1700000x1, .f32⟩
  | .hbm, ⟨90, _⟩ => ⟨S1700000x32, .f32⟩
  | .hbm, ⟨91, _⟩ => ⟨S1700000x32, .f32⟩
  | .hbm, ⟨92, _⟩ => ⟨S_, .f32⟩
  | .hbm, ⟨93, _⟩ => ⟨S100000x32, .f32⟩
  | .hbm, ⟨94, _⟩ => ⟨S1700000x1, .i32⟩
  | .hbm, ⟨95, _⟩ => ⟨S100000x32, .f32⟩
  | .hbm, ⟨96, _⟩ => ⟨S1x32, .f32⟩
  | .hbm, ⟨97, _⟩ => ⟨S100000x32, .f32⟩
  | .hbm, ⟨98, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_cst_0 : Ref sig .tc := ⟨.hbm, 75, rfl⟩
abbrev main_call2_v2 : Ref sig .tc := ⟨.hbm, 76, rfl⟩
abbrev main_call2_v3 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KRun.lean ====
/-
  The idealized kernel's run with its result named.

  The program is ten segments: host operations, then a row-tiled matrix product, host operations, a bias step, host
  operations, a second product, host operations, a second bias step.  Each segment starts from the buffer contents the
  previous one leaves, so the contents at the end are a fold from the launch memory.  The run below says that every
  weakly fair execution terminates with the result buffer holding what that fold holds for it, and with the seven
  argument arrays as launched.
-/
import proofs.«113970_j5162550690524_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents, the arguments as
    launched. -/
theorem run_main : θ_run defs (onTc (τ := τ) (main (F := F))) ⟨m, fun _ => 0, ρ⟩ (fun r => ∀ c : Dev nD,
      r.2.mem ((c.tc : Thread nD τ).loc main_v65) = W10 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v65 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.KRun

end
-- ==== Proof.KStages.lean ====
/-
  The host side of the idealized kernel's program, stage by stage, as pure functions of arrays: the two endpoint
  lists (sources and targets, each followed by the self loops), the message weights (edge weights, then ones), the
  per-node factor rsqrt(degree) with 0 at a non-positive degree, the per-message factor, and the aggregation of
  scaled source rows at the targets for rows of 64 and of 32.  Each definition is the composition of the program's
  own host operations, in its order.
-/
import proofs.«113970_j5162550690524_1_alg».proof.KernelIdeal
import proofs.«113970_j5162550690524_1_alg».proof.Proof.Gen.KernelIdeal

noncomputable section

namespace Cert.KernelIdeal.KStages

open Idealize.ShloMosaic Cert.KernelIdeal Cert.KernelIdeal.Facts₀

variable {F : FTy → Type} [FloatOps F]

/-- Endpoints: row 0 of the edge array (the sources), then the self loops 0, 1, 2, … -/
def ends0 (ei : (⟨S2x1600000, .i32⟩ : BufTy).Contents (Elt F)) : (⟨S1700000, .i32⟩ : BufTy).Contents (Elt F) :=
  concatenate S1700000 0
    [⟨S1600000, fun i => shapeCast S1600000 (extractStridedSlice S1x1600000 ![0, 0] ei slices_S2x1600000_S1x1600000_0_0)
        shapeCasts_S1x1600000_S1600000 i⟩,
     ⟨S100000, iotaInDim S100000 32 0⟩] concatenates_S1600000_S100000_S1700000_d0

/-- Endpoints: row 1 of the edge array (the targets), then the self loops. -/
def ends1 (ei : (⟨S2x1600000, .i32⟩ : BufTy).Contents (Elt F)) : (⟨S1700000, .i32⟩ : BufTy).Contents (Elt F) :=
  concatenate S1700000 0
    [⟨S1600000, fun i => shapeCast S1600000 (extractStridedSlice S1x1600000 ![1, 0] ei slices_S2x1600000_S1x1600000_1_0)
        shapeCasts_S1x1600000_S1600000 i⟩,
     ⟨S100000, iotaInDim S100000 32 0⟩] concatenates_S1600000_S100000_S1700000_d0

/-- Message weights: the edge weights, then 1 for every self loop. -/
def wts (ew : (⟨S1600000, .f32⟩ : BufTy).Contents (Elt F)) : (⟨S1700000, .f32⟩ : BufTy).Contents (Elt F) :=
  concatenate S1700000 0
    [⟨S1600000, ew⟩, ⟨S100000, broadcastInDim S100000 ![] bcast_S_S100000 (constant S_ .f32 0x3F800000#32)⟩]
    concatenates_S1600000_S100000_S1700000_d0

/-- A list of node numbers as a one-column index array, a negative number counted from the end. -/
def wrap (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Per node: rsqrt of the summed weight arriving at it, or 0 where that sum is not positive. -/
def dinv (d : (⟨S1700000, .i32⟩ : BufTy).Contents (Elt F)) (w : (⟨S1700000, .f32⟩ : BufTy).Contents (Elt F)) :
    (⟨S100000, .f32⟩ : BufTy).Contents (Elt F) :=
  select
    (cmpf .ogt
      (Host.scatterAdd scatter_S100000_S1700000x1_S1700000_n_0_0_1
        (broadcastInDim S100000 ![] bcast_S_S100000 (constant S_ .f32 0x00000000#32))
        (broadcastInDim S1700000x1 ![0] bcast_S1700000_S1700000x1_0 d) w)
      (broadcastInDim S100000 ![] bcast_S_S100000 (constant S_ .f32 0x00000000#32)))
    (Host.rsqrt
      (Host.scatterAdd scatter_S100000_S1700000x1_S1700000_n_0_0_1
        (broadcastInDim S100000 ![] bcast_S_S100000 (constant S_ .f32 0x00000000#32))
        (broadcastInDim S1700000x1 ![0] bcast_S1700000_S1700000x1_0 d) w))
    (broadcastInDim S100000 ![] bcast_S_S100000 (id (constant S_ .f32 0x00000000#32)))

/-- Per message: the factor of its source, times its weight, times the factor of its target. -/
def nrm (s d : (⟨S1700000, .i32⟩ : BufTy).Contents (Elt F)) (w : (⟨S1700000, .f32⟩ : BufTy).Contents (Elt F)) :
    (⟨S1700000, .f32⟩ : BufTy).Contents (Elt F) :=
  mulf
    (mulf (Host.gather gather_S100000_S1700000x1_S1700000_n_0_n_n_0_1_1 (dinv d w) (wrap s)) w)
    (Host.gather gather_S100000_S1700000x1_S1700000_n_0_n_n_0_1_1 (dinv d w) (wrap d))

/-- One aggregation over rows of 64: the row of every message's source, scaled, summed at the message's target. -/
def agg64 (h : (⟨S100000x64, .f32⟩ : BufTy).Contents (Elt F)) (s d : (⟨S1700000, .i32⟩ : BufTy).Contents (Elt F))
    (n : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (Host.gather gather_S100000x64_S1700000x1_S1700000x64_1_0_n_n_0_1_164 h (wrap s))
      (broadcastInDim S1700000x64 ![0, 1] bcast_S1700000x1_S1700000x64_0_1
        (broadcastInDim S1700000x1 ![0] bcast_S1700000_S1700000x1_0 n)))

/-- The same aggregation over rows of 32. -/
def agg32 (h : (⟨S100000x32, .f32⟩ : BufTy).Contents (Elt F)) (s d : (⟨S1700000, .i32⟩ : BufTy).Contents (Elt F))
    (n : (⟨S1700000, .f32⟩ : BufTy).Contents (Elt F)) : (⟨S100000x32, .f32⟩ : BufTy).Contents (Elt F) :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 d)
    (mulf (Host.gather gather_S100000x32_S1700000x1_S1700000x32_1_0_n_n_0_1_132 h (wrap s))
      (broadcastInDim S1700000x32 ![0, 1] bcast_S1700000x1_S1700000x32_0_1
        (broadcastInDim S1700000x1 ![0] bcast_S1700000_S1700000x1_0 n)))

end Cert.KernelIdeal.KStages

end
-- ==== Proof.KChain.lean ====
/-
  What each stretch of host operations of the idealized kernel's program leaves, read at the buffers that matter.

  Before the first product: the two endpoint lists, the per-message factors, and the two operands of the product
  (a change of float format only).  Between the first product and the first bias step: the aggregation of the
  product's rows.  Before the second product: its two operands.  Before the last bias step: the second aggregation.
  Every other buffer a stretch reads later is left as it was.  Each statement is for ANY contents the stretch starts
  from, so it applies at whatever the previous segment left.
-/
import proofs.«113970_j5162550690524_1_alg».proof.Proof.Gen.KernelIdeal.Frame
import proofs.«113970_j5162550690524_1_alg».proof.Proof.KStages
import Idealize.ShloMosaic.Lib.StableHlo.Run

noncomputable section

namespace Cert.KernelIdeal.KChain

open Idealize.ShloMosaic Idealize.ShloMosaic.TcCoe Idealize.SL.Sem
open Cert.KernelIdeal Cert.KernelIdeal.Gen
open Idealize.ShloMosaic.StableHlo (after after_cons after_nil)

variable {F : FTy → Type} [FloatOps F]

/-! ## Before the first product -/

set_option maxHeartbeats 2000000 in
theorem pre_v3 (W : Valuation τ sig (Elt F)) :
    StableHlo.after hostOps0_2 (StableHlo.after hostOps0_1 (StableHlo.after hostOps0 W)) (Proc.devRef .tc main_v3) = KStages.ends0 (W (Proc.devRef .tc main_arg1)) := by
  dsimp only [hostOps0, hostOps0_1, hostOps0_2]
  after_results_simp
  rfl

set_option maxHeartbeats 2000000 in
theorem pre_v6 (W : Valuation τ sig (Elt F)) :
    StableHlo.after hostOps0_2 (StableHlo.after hostOps0_1 (StableHlo.after hostOps0 W)) (Proc.devRef .tc main_v6) = KStages.ends1 (W (Proc.devRef .tc main_arg1)) := by
  dsimp only [hostOps0, hostOps0_1, hostOps0_2]
  after_results_simp
  rfl

set_option maxHeartbeats 4000000 in
theorem pre_v31 (W : Valuation τ sig (Elt F)) :
    StableHlo.after hostOps0_2 (StableHlo.after hostOps0_1 (StableHlo.after hostOps0 W)) (Proc.devRef .tc main_v31)
      = KStages.nrm (KStages.ends0 (W (Proc.devRef .tc main_arg1))) (KStages.ends1 (W (Proc.devRef .tc main_arg1)))
          (KStages.wts (W (Proc.devRef .tc main_arg2))) := by
  dsimp only [hostOps0, hostOps0_1, hostOps0_2]
  after_results_simp
  rfl

set_option maxHeartbeats 2000000 in
theorem pre_v32 (W : Valuation τ sig (Elt F)) :
    StableHlo.after hostOps0_2 (StableHlo.after hostOps0_1 (StableHlo.after hostOps0 W)) (Proc.devRef .tc main_v32) = truncf .bf16 (W (Proc.devRef .tc main_arg0)) bitsLt_bf16_f32 := by
  dsimp only [hostOps0, hostOps0_1, hostOps0_2]
  after_results_simp

set_option maxHeartbeats 2000000 in
theorem pre_v33 (W : Valuation τ sig (Elt F)) :
    StableHlo.after hostOps0_2 (StableHlo.after hostOps0_1 (StableHlo.after hostOps0 W)) (Proc.devRef .tc main_v33) = truncf .bf16 (W (Proc.devRef .tc main_arg3)) bitsLt_bf16_f32 := by
  dsimp only [hostOps0, hostOps0_1, hostOps0_2]
  after_results_simp

set_option maxHeartbeats 2000000 in
theorem pre_arg4 (W : Valuation τ sig (Elt F)) :
    StableHlo.after hostOps0_2 (StableHlo.after hostOps0_1 (StableHlo.after hostOps0 W)) (Proc.devRef .tc main_arg4) = W (Proc.devRef .tc main_arg4) := by
  dsimp only [hostOps0, hostOps0_1, hostOps0_2]
  after_results_simp

set_option maxHeartbeats 2000000 in
theorem pre_arg5 (W : Valuation τ sig (Elt F)) :
    StableHlo.after hostOps0_2 (StableHlo.after hostOps0_1 (StableHlo.after hostOps0 W)) (Proc.devRef .tc main_arg5) = W (Proc.devRef .tc main_arg5) := by
  dsimp only [hostOps0, hostOps0_1, hostOps0_2]
  after_results_simp

set_option maxHeartbeats 2000000 in
theorem pre_arg6 (W : Valuation τ sig (Elt F)) :
    StableHlo.after hostOps0_2 (StableHlo.after hostOps0_1 (StableHlo.after hostOps0 W)) (Proc.devRef .tc main_arg6) = W (Proc.devRef .tc main_arg6) := by
  dsimp only [hostOps0, hostOps0_1, hostOps0_2]
  after_results_simp

/-! ## Between the first product and the first bias step -/

set_option maxHeartbeats 1000000 in
theorem s1_v47 (W : Valuation τ sig (Elt F)) :
    StableHlo.after hostOps1 W (Proc.devRef .tc main_v47)
      = KStages.agg64 (W (Proc.devRef .tc main_v34)) (W (Proc.devRef .tc main_v3)) (W (Proc.devRef .tc main_v6))
          (W (Proc.devRef .tc main_v31)) := by
  dsimp only [hostOps1]
  after_results_simp
  rfl

theorem s1_v3 (W : Valuation τ sig (Elt F)) :
    StableHlo.after hostOps1 W (Proc.devRef .tc main_v3) = W (Proc.devRef .tc main_v3) := by
  dsimp only [hostOps1]
  after_results_simp

theorem s1_v6 (W : Valuation τ sig (Elt F)) :
    StableHlo.after hostOps1 W (Proc.devRef .tc main_v6) = W (Proc.devRef .tc main_v6) := by
  dsimp only [hostOps1]
  after_results_simp

theorem s1_v31 (W : Valuation τ sig (Elt F)) :
    StableHlo.after hostOps1 W (Proc.devRef .tc main_v31) = W (Proc.devRef .tc main_v31) := by
  dsimp only [hostOps1]
  after_results_simp

theorem s1_arg4 (W : Valuation τ sig (Elt F)) :
    StableHlo.after hostOps1 W (Proc.devRef .tc main_arg4) = W (Proc.devRef .tc main_arg4) := by
  dsimp only [hostOps1]
  after_results_simp

theorem s1_arg5 (W : Valuation τ sig (Elt F)) :
    StableHlo.after hostOps1 W (Proc.devRef .tc main_arg5) = W (Proc.devRef .tc main_arg5) := by
  dsimp only [hostOps1]
  after_results_simp

theorem s1_arg6 (W : Valuation τ sig (Elt F)) :
    StableHlo.after hostOps1 W (Proc.devRef .tc main_arg6) = W (Proc.devRef .tc main_arg6) := by
  dsimp only [hostOps1]
  after_results_simp

/-! ## Before the second product -/

theorem s2_v49 (W : Valuation τ sig (Elt F)) :
    StableHlo.after hostOps2 W (Proc.devRef .tc main_v49) = truncf .bf16 (W (Proc.devRef .tc main_v48)) bitsLt_bf16_f32 := by
  dsimp only [hostOps2]
  after_results_simp

theorem s2_v50 (W : Valuation τ sig (Elt F)) :
    StableHlo.after hostOps2 W (Proc.devRef .tc main_v50) = truncf .bf16 (W (Proc.devRef .tc main_arg5)) bitsLt_bf16_f32 := by
  dsimp only [hostOps2]
  after_results_simp

theorem s2_v3 (W : Valuation τ sig (Elt F)) :
    StableHlo.after hostOps2 W (Proc.devRef .tc main_v3) = W (Proc.devRef .tc main_v3) := by
  dsimp only [hostOps2]
  after_results_simp

theorem s2_v6 (W : Valuation τ sig (Elt F)) :
    StableHlo.after hostOps2 W (Proc.devRef .tc main_v6) = W (Proc.devRef .tc main_v6) := by
  dsimp only [hostOps2]
  after_results_simp

theorem s2_v31 (W : Valuation τ sig (Elt F)) :
    StableHlo.after hostOps2 W (Proc.devRef .tc main_v31) = W (Proc.devRef .tc main_v31) := by
  dsimp only [hostOps2]
  after_results_simp

theorem s2_arg6 (W : Valuation τ sig (Elt F)) :
    StableHlo.after hostOps2 W (Proc.devRef .tc main_arg6) = W (Proc.devRef .tc main_arg6) := by
  dsimp only [hostOps2]
  after_results_simp

/-! ## Before the last bias step -/

set_option maxHeartbeats 1000000 in
theorem s3_v64 (W : Valuation τ sig (Elt F)) :
    StableHlo.after hostOps3 W (Proc.devRef .tc main_v64)
      = KStages.agg32 (W (Proc.devRef .tc main_v51)) (W (Proc.devRef .tc main_v3)) (W (Proc.devRef .tc main_v6))
          (W (Proc.devRef .tc main_v31)) := by
  dsimp only [hostOps3]
  after_results_simp
  rfl

theorem s3_arg6 (W : Valuation τ sig (Elt F)) :
    StableHlo.after hostOps3 W (Proc.devRef .tc main_arg6) = W (Proc.devRef .tc main_arg6) := by
  dsimp only [hostOps3]
  after_results_simp

end Cert.KernelIdeal.KChain

end
-- ==== Proof.KValue.lean ====
/-
  The idealized kernel's result as one function of its seven arguments.

  Going through the program's ten segments: the first product P0 of the two converted operands; the aggregation of its
  rows along the messages; the first bias step A1; the second product P2 of the converted hidden layer and the
  converted second weight matrix; the second aggregation; the last bias step A3.  The endpoint lists and the
  per-message factors are computed once, before the first product, and no later segment writes them, so every later
  stretch reads the same three arrays.  The four region functions are parameters here: what each region leaves in its
  output array, as a function of what it finds in its two input arrays, for any contents the region starts from.
-/
import proofs.«113970_j5162550690524_1_alg».proof.Proof.KChain

noncomputable section

namespace Cert.KernelIdeal.KValue

open Idealize.ShloMosaic Idealize.ShloMosaic.TcCoe Idealize.SL.Sem
open Cert.KernelIdeal Cert.KernelIdeal.Gen Cert.KernelIdeal.KChain

variable {F : FTy → Type} [FloatOps F]

variable
  {P0 : (⟨S100000x128, .bf16⟩ : BufTy).Contents (Elt F) → (⟨S128x64, .bf16⟩ : BufTy).Contents (Elt F) → (⟨S100000x64, .f32⟩ : BufTy).Contents (Elt F)}
  {A1 : (⟨S100000x64, .f32⟩ : BufTy).Contents (Elt F) → (⟨S64, .f32⟩ : BufTy).Contents (Elt F) → (⟨S100000x64, .f32⟩ : BufTy).Contents (Elt F)}
  {P2 : (⟨S100000x64, .bf16⟩ : BufTy).Contents (Elt F) → (⟨S64x32, .bf16⟩ : BufTy).Contents (Elt F) → (⟨S100000x32, .f32⟩ : BufTy).Contents (Elt F)}
  {A3 : (⟨S100000x32, .f32⟩ : BufTy).Contents (Elt F) → (⟨S32, .f32⟩ : BufTy).Contents (Elt F) → (⟨S100000x32, .f32⟩ : BufTy).Contents (Elt F)}

/-- The kernel's result: the last bias step of the second aggregation of the second product of the first bias step
    of the first aggregation of the first product. -/
theorem result
    (h0 : ∀ (V : (c : Dev nD) → (b : Ref sig .tc) → Buf (Elt F) ((c : Thread nD τ).loc b)) (c : Dev nD),
      (dat0 V c).arrAt 2 cfg0.N = P0 (V c main_v32) (V c main_v33))
    (h1 : ∀ (V : (c : Dev nD) → (b : Ref sig .tc) → Buf (Elt F) ((c : Thread nD τ).loc b)) (c : Dev nD),
      (dat1 V c).arrAt 2 cfg1.N = A1 (V c main_v47) (V c main_arg4))
    (h2 : ∀ (V : (c : Dev nD) → (b : Ref sig .tc) → Buf (Elt F) ((c : Thread nD τ).loc b)) (c : Dev nD),
      (dat2 V c).arrAt 2 cfg2.N = P2 (V c main_v49) (V c main_v50))
    (h3 : ∀ (V : (c : Dev nD) → (b : Ref sig .tc) → Buf (Elt F) ((c : Thread nD τ).loc b)) (c : Dev nD),
      (dat3 V c).arrAt 2 cfg3.N = A3 (V c main_v64) (V c main_arg6))
    (m : (ℓ : Loc nD τ sig) → Buf (Elt F) ℓ) (ρ : Dev nD → PrngReg) (c : Dev nD) :
    W10 m ρ c (Proc.devRef .tc main_v65)
      = A3 (KStages.agg32
            (P2 (truncf .bf16
                  (A1 (KStages.agg64 (P0 (truncf .bf16 (m ((c : Thread nD τ).loc main_arg0)) bitsLt_bf16_f32)
                                          (truncf .bf16 (m ((c : Thread nD τ).loc main_arg3)) bitsLt_bf16_f32))
                        (KStages.ends0 (m ((c : Thread nD τ).loc main_arg1))) (KStages.ends1 (m ((c : Thread nD τ).loc main_arg1)))
                        (KStages.nrm (KStages.ends0 (m ((c : Thread nD τ).loc main_arg1))) (KStages.ends1 (m ((c : Thread nD τ).loc main_arg1)))
                          (KStages.wts (m ((c : Thread nD τ).loc main_arg2)))))
                      (m ((c : Thread nD τ).loc main_arg4))) bitsLt_bf16_f32)
                (truncf .bf16 (m ((c : Thread nD τ).loc main_arg5)) bitsLt_bf16_f32))
            (KStages.ends0 (m ((c : Thread nD τ).loc main_arg1))) (KStages.ends1 (m ((c : Thread nD τ).loc main_arg1)))
            (KStages.nrm (KStages.ends0 (m ((c : Thread nD τ).loc main_arg1))) (KStages.ends1 (m ((c : Thread nD τ).loc main_arg1)))
              (KStages.wts (m ((c : Thread nD τ).loc main_arg2)))))
          (m ((c : Thread nD τ).loc main_arg6)) := by
  -- the contents region 0 is entered from
  have a3_v3 : W3 m ρ c (Proc.devRef .tc main_v3) = KStages.ends0 (m ((c : Thread nD τ).loc main_arg1)) := pre_v3 (W0 m ρ c)
  have a3_v6 : W3 m ρ c (Proc.devRef .tc main_v6) = KStages.ends1 (m ((c : Thread nD τ).loc main_arg1)) := pre_v6 (W0 m ρ c)
  have a3_v31 : W3 m ρ c (Proc.devRef .tc main_v31)
      = KStages.nrm (KStages.ends0 (m ((c : Thread nD τ).loc main_arg1))) (KStages.ends1 (m ((c : Thread nD τ).loc main_arg1))) (KStages.wts (m ((c : Thread nD τ).loc main_arg2))) :=
    pre_v31 (W0 m ρ c)
  have a3_v32 : W3 m ρ c (Proc.devRef .tc main_v32) = truncf .bf16 (m ((c : Thread nD τ).loc main_arg0)) bitsLt_bf16_f32 := pre_v32 (W0 m ρ c)
  have a3_v33 : W3 m ρ c (Proc.devRef .tc main_v33) = truncf .bf16 (m ((c : Thread nD τ).loc main_arg3)) bitsLt_bf16_f32 := pre_v33 (W0 m ρ c)
  have a3_arg4 : W3 m ρ c (Proc.devRef .tc main_arg4) = (m ((c : Thread nD τ).loc main_arg4)) := pre_arg4 (W0 m ρ c)
  have a3_arg5 : W3 m ρ c (Proc.devRef .tc main_arg5) = (m ((c : Thread nD τ).loc main_arg5)) := pre_arg5 (W0 m ρ c)
  have a3_arg6 : W3 m ρ c (Proc.devRef .tc main_arg6) = (m ((c : Thread nD τ).loc main_arg6)) := pre_arg6 (W0 m ρ c)
  -- region 0's exit
  have a4_v34 : W4 m ρ c (Proc.devRef .tc main_v34)
      = P0 (W3 m ρ c (Proc.devRef .tc main_v32)) (W3 m ρ c (Proc.devRef .tc main_v33)) :=
    (W4_arr m ρ c 2).trans (h0 (V3 m ρ) c)
  have a4_v3 : W4 m ρ c (Proc.devRef .tc main_v3) = W3 m ρ c (Proc.devRef .tc main_v3) := W4_of_ne m ρ c main_v3 (by decide)
  have a4_v6 : W4 m ρ c (Proc.devRef .tc main_v6) = W3 m ρ c (Proc.devRef .tc main_v6) := W4_of_ne m ρ c main_v6 (by decide)
  have a4_v31 : W4 m ρ c (Proc.devRef .tc main_v31) = W3 m ρ c (Proc.devRef .tc main_v31) := W4_of_ne m ρ c main_v31 (by decide)
  have a4_arg4 : W4 m ρ c (Proc.devRef .tc main_arg4) = W3 m ρ c (Proc.devRef .tc main_arg4) := W4_of_ne m ρ c main_arg4 (by decide)
  have a4_arg5 : W4 m ρ c (Proc.devRef .tc main_arg5) = W3 m ρ c (Proc.devRef .tc main_arg5) := W4_of_ne m ρ c main_arg5 (by decide)
  have a4_arg6 : W4 m ρ c (Proc.devRef .tc main_arg6) = W3 m ρ c (Proc.devRef .tc main_arg6) := W4_of_ne m ρ c main_arg6 (by decide)
  -- region 1's entry
  have a5_v47 : W5 m ρ c (Proc.devRef .tc main_v47)
      = KStages.agg64 (W4 m ρ c (Proc.devRef .tc main_v34)) (W4 m ρ c (Proc.devRef .tc main_v3))
          (W4 m ρ c (Proc.devRef .tc main_v6)) (W4 m ρ c (Proc.devRef .tc main_v31)) := s1_v47 (W4 m ρ c)
  have a5_v3 : W5 m ρ c (Proc.devRef .tc main_v3) = W4 m ρ c (Proc.devRef .tc main_v3) := s1_v3 (W4 m ρ c)
  have a5_v6 : W5 m ρ c (Proc.devRef .tc main_v6) = W4 m ρ c (Proc.devRef .tc main_v6) := s1_v6 (W4 m ρ c)
  have a5_v31 : W5 m ρ c (Proc.devRef .tc main_v31) = W4 m ρ c (Proc.devRef .tc main_v31) := s1_v31 (W4 m ρ c)
  have a5_arg4 : W5 m ρ c (Proc.devRef .tc main_arg4) = W4 m ρ c (Proc.devRef .tc main_arg4) := s1_arg4 (W4 m ρ c)
  have a5_arg5 : W5 m ρ c (Proc.devRef .tc main_arg5) = W4 m ρ c (Proc.devRef .tc main_arg5) := s1_arg5 (W4 m ρ c)
  have a5_arg6 : W5 m ρ c (Proc.devRef .tc main_arg6) = W4 m ρ c (Proc.devRef .tc main_arg6) := s1_arg6 (W4 m ρ c)
  -- region 1's exit
  have a6_v48 : W6 m ρ c (Proc.devRef .tc main_v48)
      = A1 (W5 m ρ c (Proc.devRef .tc main_v47)) (W5 m ρ c (Proc.devRef .tc main_arg4)) :=
    (W6_arr m ρ c 2).trans (h1 (V5 m ρ) c)
  have a6_v3 : W6 m ρ c (Proc.devRef .tc main_v3) = W5 m ρ c (Proc.devRef .tc main_v3) := W6_of_ne m ρ c main_v3 (by decide)
  have a6_v6 : W6 m ρ c (Proc.devRef .tc main_v6) = W5 m ρ c (Proc.devRef .tc main_v6) := W6_of_ne m ρ c main_v6 (by decide)
  have a6_v31 : W6 m ρ c (Proc.devRef .tc main_v31) = W5 m ρ c (Proc.devRef .tc main_v31) := W6_of_ne m ρ c main_v31 (by decide)
  have a6_arg5 : W6 m ρ c (Proc.devRef .tc main_arg5) = W5 m ρ c (Proc.devRef .tc main_arg5) := W6_of_ne m ρ c main_arg5 (by decide)
  have a6_arg6 : W6 m ρ c (Proc.devRef .tc main_arg6) = W5 m ρ c (Proc.devRef .tc main_arg6) := W6_of_ne m ρ c main_arg6 (by decide)
  -- region 2's entry
  have a7_v49 : W7 m ρ c (Proc.devRef .tc main_v49) = truncf .bf16 (W6 m ρ c (Proc.devRef .tc main_v48)) bitsLt_bf16_f32 := s2_v49 (W6 m ρ c)
  have a7_v50 : W7 m ρ c (Proc.devRef .tc main_v50) = truncf .bf16 (W6 m ρ c (Proc.devRef .tc main_arg5)) bitsLt_bf16_f32 := s2_v50 (W6 m ρ c)
  have a7_v3 : W7 m ρ c (Proc.devRef .tc main_v3) = W6 m ρ c (Proc.devRef .tc main_v3) := s2_v3 (W6 m ρ c)
  have a7_v6 : W7 m ρ c (Proc.devRef .tc main_v6) = W6 m ρ c (Proc.devRef .tc main_v6) := s2_v6 (W6 m ρ c)
  have a7_v31 : W7 m ρ c (Proc.devRef .tc main_v31) = W6 m ρ c (Proc.devRef .tc main_v31) := s2_v31 (W6 m ρ c)
  have a7_arg6 : W7 m ρ c (Proc.devRef .tc main_arg6) = W6 m ρ c (Proc.devRef .tc main_arg6) := s2_arg6 (W6 m ρ c)
  -- region 2's exit
  have a8_v51 : W8 m ρ c (Proc.devRef .tc main_v51)
      = P2 (W7 m ρ c (Proc.devRef .tc main_v49)) (W7 m ρ c (Proc.devRef .tc main_v50)) :=
    (W8_arr m ρ c 2).trans (h2 (V7 m ρ) c)
  have a8_v3 : W8 m ρ c (Proc.devRef .tc main_v3) = W7 m ρ c (Proc.devRef .tc main_v3) := W8_of_ne m ρ c main_v3 (by decide)
  have a8_v6 : W8 m ρ c (Proc.devRef .tc main_v6) = W7 m ρ c (Proc.devRef .tc main_v6) := W8_of_ne m ρ c main_v6 (by decide)
  have a8_v31 : W8 m ρ c (Proc.devRef .tc main_v31) = W7 m ρ c (Proc.devRef .tc main_v31) := W8_of_ne m ρ c main_v31 (by decide)
  have a8_arg6 : W8 m ρ c (Proc.devRef .tc main_arg6) = W7 m ρ c (Proc.devRef .tc main_arg6) := W8_of_ne m ρ c main_arg6 (by decide)
  -- region 3's entry
  have a9_v64 : W9 m ρ c (Proc.devRef .tc main_v64)
      = KStages.agg32 (W8 m ρ c (Proc.devRef .tc main_v51)) (W8 m ρ c (Proc.devRef .tc main_v3))
          (W8 m ρ c (Proc.devRef .tc main_v6)) (W8 m ρ c (Proc.devRef .tc main_v31)) := s3_v64 (W8 m ρ c)
  have a9_arg6 : W9 m ρ c (Proc.devRef .tc main_arg6) = W8 m ρ c (Proc.devRef .tc main_arg6) := s3_arg6 (W8 m ρ c)
  -- region 3's exit
  have a10 : W10 m ρ c (Proc.devRef .tc main_v65)
      = A3 (W9 m ρ c (Proc.devRef .tc main_v64)) (W9 m ρ c (Proc.devRef .tc main_arg6)) :=
    (W10_arr m ρ c 2).trans (h3 (V9 m ρ) c)
  -- the three carried arrays and the carried arguments, walked back to region 0's entry
  have c8_v3 : W8 m ρ c (Proc.devRef .tc main_v3) = KStages.ends0 (m ((c : Thread nD τ).loc main_arg1)) := by
    rw [a8_v3, a7_v3, a6_v3, a5_v3, a4_v3, a3_v3]
  have c8_v6 : W8 m ρ c (Proc.devRef .tc main_v6) = KStages.ends1 (m ((c : Thread nD τ).loc main_arg1)) := by
    rw [a8_v6, a7_v6, a6_v6, a5_v6, a4_v6, a3_v6]
  have c8_v31 : W8 m ρ c (Proc.devRef .tc main_v31)
      = KStages.nrm (KStages.ends0 (m ((c : Thread nD τ).loc main_arg1))) (KStages.ends1 (m ((c : Thread nD τ).loc main_arg1))) (KStages.wts (m ((c : Thread nD τ).loc main_arg2))) := by
    rw [a8_v31, a7_v31, a6_v31, a5_v31, a4_v31, a3_v31]
  have c9_arg6 : W9 m ρ c (Proc.devRef .tc main_arg6) = (m ((c : Thread nD τ).loc main_arg6)) := by
    rw [a9_arg6, a8_arg6, a7_arg6, a6_arg6, a5_arg6, a4_arg6, a3_arg6]
  have c6_arg5 : W6 m ρ c (Proc.devRef .tc main_arg5) = (m ((c : Thread nD τ).loc main_arg5)) := by
    rw [a6_arg5, a5_arg5, a4_arg5, a3_arg5]
  have c5_arg4 : W5 m ρ c (Proc.devRef .tc main_arg4) = (m ((c : Thread nD τ).loc main_arg4)) := by
    rw [a5_arg4, a4_arg4, a3_arg4]
  rw [a10, a9_v64, c9_arg6, c8_v3, c8_v6, c8_v31, a8_v51, a7_v49, a7_v50, c6_arg5, a6_v48, c5_arg4, a5_v47,
    a4_v34, a3_v32, a3_v33, a4_v3, a4_v6, a4_v31, a3_v3, a3_v6, a3_v31]

end Cert.KernelIdeal.KValue

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibProdRows.lean ====
/-
  Two facts about products of rank-2 arrays of extended reals, over generic extents, beside `MatProd.entry` / `mm`.

  First, a dimension-numbers record that contracts the columns of its left operand against the rows of its right
  one (`MatProd.Plain`: one contracted axis of the inner extent, the left operand read at (result row, contracted
  coordinate), the right operand at (contracted coordinate, result column)) makes both spellings of a product the
  array `mm`: the matrix unit's product onto the zero accumulator (`matmul_zero_mm`) and the host's
  dot_general (`dotGeneral_mm`).

  Second, the band law `entry_mm_rows`: if row `p` of a short array `a` is row `r` of a tall array `A`, then
  entry (p, q) of (a * W1) * W2 is entry (r, q) of (A * W1) * W2.  Each entry of a two-fold product depends on one
  row of the leftmost factor only, so a band of rows of the product is the product of the band.  No finiteness is
  used: the two sides are the same sums of the same products.
-/
import proofs.«113970_j5162550690524_1_alg».proof.Proof.LibMatProd

noncomputable section

open scoped BigOperators

namespace MatProd

open Idealize.ShloMosaic Idealize.ShloMosaic.ValueIdx

/-- The record contracts the left operand's columns against the right operand's rows, and nothing else. -/
structure Plain {n k m : ℕ} (d : DotDims (⟨2, ![n, k]⟩ : Shape) (⟨2, ![k, m]⟩ : Shape) (⟨2, ![n, m]⟩ : Shape)) : Prop where
  hr : d.contr.rank = 1
  hs : d.contr.size ⟨0, by omega⟩ = k
  hl0 : ∀ (j : (⟨2, ![n, m]⟩ : Shape).Idx) (c : d.contr.Idx), (d.lhsIdx j c 0).val = (j 0).val
  hl1 : ∀ (j : (⟨2, ![n, m]⟩ : Shape).Idx) (c : d.contr.Idx), (d.lhsIdx j c 1).val = (c ⟨0, by omega⟩).val
  hr0 : ∀ (j : (⟨2, ![n, m]⟩ : Shape).Idx) (c : d.contr.Idx), (d.rhsIdx j c 0).val = (c ⟨0, by omega⟩).val
  hr1 : ∀ (j : (⟨2, ![n, m]⟩ : Shape).Idx) (c : d.contr.Idx), (d.rhsIdx j c 1).val = (j 1).val

/-- The matrix unit's product onto the zero accumulator is the product array. -/
theorem matmul_zero_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (lhs : FVec Ideal (⟨2, ![n, k]⟩ : Shape) φ₁) (rhs : FVec Ideal (⟨2, ![k, m]⟩ : Shape) φ₂) :
    FloatOps.matmul d prec lhs rhs (constant (F := Ideal) (⟨2, ![n, m]⟩ : Shape) .f32 0x00000000#32) = mm lhs rhs := by
  funext i
  obtain ⟨p, q, rfl⟩ : ∃ (p : Fin n) (q : Fin m), i = ix2 p q := ⟨i 0, i 1, eq_ix2 i⟩
  rw [matmul_zero_entry d prec h.hr h.hs h.hl0 h.hl1 h.hr0 h.hr1 lhs rhs p q, mm_ix2]

/-- The host's dot_general at one pair of coordinates is the product's entry. -/
theorem dotGeneral_entry {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) (p : Fin n) (q : Fin m) :
    FloatOps.dotGeneral d prec sched lhs rhs (ix2 p q) = entry lhs rhs p q := by
  rw [Ideal.dotGeneral_apply, ← Equiv.sum_comp (contrEquiv1 d k h.hr h.hs).symm]
  unfold entry
  refine Finset.sum_congr rfl fun l _ => ?_
  have hk := contrEquiv1_symm_val d k h.hr h.hs l
  have el : d.lhsIdx (ix2 p q) ((contrEquiv1 d k h.hr h.hs).symm l) = ix2 p l := funext fun a => Fin.ext (by
    match a with
    | ⟨0, _⟩ => exact h.hl0 _ _
    | ⟨1, _⟩ => exact (h.hl1 _ _).trans hk)
  have er : d.rhsIdx (ix2 p q) ((contrEquiv1 d k h.hr h.hs).symm l) = ix2 l q := funext fun a => Fin.ext (by
    match a with
    | ⟨0, _⟩ => exact (h.hr0 _ _).trans hk
    | ⟨1, _⟩ => exact h.hr1 _ _)
  rw [el, er]

/-- The host's dot_general is the product array. -/
theorem dotGeneral_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) :
    FloatOps.dotGeneral d prec sched lhs rhs = mm lhs rhs := by
  funext i
  obtain ⟨p, q, rfl⟩ : ∃ (p : Fin n) (q : Fin m), i = ix2 p q := ⟨i 0, i 1, eq_ix2 i⟩
  rw [dotGeneral_entry h, mm_ix2]

/-- THE BAND LAW.  If row `p` of `a` is row `r` of `A`, entry (p, q) of (a * W1) * W2 is entry (r, q) of (A * W1) * W2. -/
theorem entry_mm_rows {N n k h m : ℕ} (A : (⟨2, ![N, k]⟩ : Shape).Idx → EReal) (a : (⟨2, ![n, k]⟩ : Shape).Idx → EReal)
    (W1 : (⟨2, ![k, h]⟩ : Shape).Idx → EReal) (W2 : (⟨2, ![h, m]⟩ : Shape).Idx → EReal) (p : Fin n) (r : Fin N)
    (hrow : ∀ l, a (ix2 p l) = A (ix2 r l)) (q : Fin m) :
    entry (mm a W1) W2 p q = entry (mm A W1) W2 r q := by
  unfold entry
  refine Finset.sum_congr rfl fun x _ => ?_
  rw [mm_ix2, mm_ix2]
  unfold entry
  rw [Finset.sum_congr rfl fun l _ => by rw [hrow l]]

end MatProd

end
-- ==== Proof.LibBand.lean ====
/-
  A band of rows of a matrix product is the product of the band.

  Entry (p, q) of a product is the sum over l of A (p, l) * W (l, q): it reads one row of the left factor.  So if the
  short array "a" holds rows o, o + 1, … of the tall array "A", then the product "a * W" at (p, q) is the product
  "A * W" at (o + p, q).  Both sides are the same sum of the same products: nothing about finiteness is used.
-/
import proofs.«113970_j5162550690524_1_alg».proof.Proof.LibMatProd

noncomputable section

open scoped BigOperators

namespace MatProd

open Idealize.ShloMosaic Idealize.ShloMosaic.ValueIdx

/-- The band of the product is the product of the band. "ha": row p of "a" is row r of "A" whenever r = o + p. -/
theorem mm_band {N n k m : ℕ} (A : (⟨2, ![N, k]⟩ : Shape).Idx → EReal) (a : (⟨2, ![n, k]⟩ : Shape).Idx → EReal)
    (W : (⟨2, ![k, m]⟩ : Shape).Idx → EReal) (o : ℕ)
    (ha : ∀ (p : Fin n) (r : Fin N), r.val = o + p.val → ∀ l : Fin k, a (ix2 p l) = A (ix2 r l))
    (j : (⟨2, ![n, m]⟩ : Shape).Idx) (i : (⟨2, ![N, m]⟩ : Shape).Idx)
    (h0 : (i 0).val = o + (j 0).val) (h1 : (i 1).val = (j 1).val) :
    mm a W j = mm A W i := by
  unfold mm entry
  have hq : (⟨(i 1).val, idx2_lt1 i⟩ : Fin m) = ⟨(j 1).val, idx2_lt1 j⟩ := Fin.ext h1
  rw [hq]
  refine Finset.sum_congr rfl fun l _ => ?_
  rw [ha ⟨(j 0).val, idx2_lt0 j⟩ ⟨(i 0).val, idx2_lt0 i⟩ h0 l]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.Reg0.lean ====
/-
  Region 0: the array the first matrix-product kernel leaves.

  The grid has ten points.  Point t stages rows 10000 t, ..., 10000 t + 9999 of the left factor and the whole right
  factor, multiplies them on the matrix unit onto a zero accumulator, and writes the 10000 x 64 result back as rows
  10000 t, ... of the output.  A product onto zero is the plain product of the two blocks; a band of rows of a product
  is the product of the band; the ten bands tile the 100000 rows.  So the output array is the product of the two
  arrays the region finds.

  The first part is general (any extents): a product of a band, read at a block index, is the full product read at
  the array index with the band's offset added to the row.
-/
import proofs.«113970_j5162550690524_1_alg».proof.Proof.Gen.KernelIdeal.Frame
import proofs.«113970_j5162550690524_1_alg».proof.Proof.LibMatProd
import proofs.«113970_j5162550690524_1_alg».proof.Proof.LibProdRows
import proofs.«113970_j5162550690524_1_alg».proof.Proof.LibBand
import proofs.«113970_j5162550690524_1_alg».proof.Proof.LibDot2
import Idealize.ShloMosaic.Lib.Pipeline.Value
import Idealize.ShloMosaic.Lib.ValueIdx
import Idealize.ShloMosaic.PureOps.Ideal.Laws

noncomputable section

namespace Cert.KernelIdeal.RegVal

open Idealize.ShloMosaic Idealize.ShloMosaic.TcCoe Idealize.SL.Sem Cert.KernelIdeal Cert.KernelIdeal.Gen
open Idealize.ShloMosaic.Pipeline (Dat)
open Idealize.ShloMosaic.ValueIdx

/-- The offset of a block that starts at the origin, spelt as a constant function. -/
theorem origin2 : (![0, 0] : Fin 2 → Nat) = fun _ => 0 := funext fun a => by fin_cases a <;> rfl

/-- GENERAL.  Let the short array "a" hold rows o, o + 1, ... of the tall array "A" (stated index by index), and let
    "w" agree with "W" everywhere.  Then the product a * w at the block index j is the product A * W at any array
    index i whose row is o + (row of j) and whose column is the column of j. -/
theorem mm_rows {N n k m : ℕ} (A : (⟨2, ![N, k]⟩ : Shape).Idx → EReal) (W : (⟨2, ![k, m]⟩ : Shape).Idx → EReal)
    (a : (⟨2, ![n, k]⟩ : Shape).Idx → EReal) (w : (⟨2, ![k, m]⟩ : Shape).Idx → EReal) (o : ℕ)
    (ha : ∀ (x : (⟨2, ![n, k]⟩ : Shape).Idx) (i : (⟨2, ![N, k]⟩ : Shape).Idx),
      (i 0).val = o + (x 0).val → (i 1).val = (x 1).val → a x = A i)
    (hw : ∀ y, w y = W y)
    (j : (⟨2, ![n, m]⟩ : Shape).Idx) (i : (⟨2, ![N, m]⟩ : Shape).Idx)
    (h0 : (i 0).val = o + (j 0).val) (h1 : (i 1).val = (j 1).val) :
    MatProd.mm a w j = MatProd.mm A W i := by
  obtain rfl : w = W := funext hw
  exact MatProd.mm_band A a w o (fun p r hr l => ha (ix2 p l) (ix2 r l) hr rfl) j i h0 h1

/-! ## Region 0 -/

section
variable (V : (c : Dev nD) → (b : Ref sig .tc) → Buf (Elt Ideal) ((c : Thread nD τ).loc b))

/-- The kernel's dimension numbers are a plain product's. -/
theorem plain0 : MatProd.Plain dot_S10000x128_S128x64_S10000x64_1_0_0_1_n_n where
  hr := Dot2.rank_contr _ rfl
  hs := Dot2.size_contr _ rfl _
  hl0 := Dot2.lhs0 _ rfl rfl
  hl1 := Dot2.lhs1 _ rfl _
  hr0 := Dot2.rhs0 _ rfl _
  hr1 := Dot2.rhs1 _ rfl rfl rfl rfl

/-- The body's arithmetic on two staged blocks is their product. -/
theorem pay0_mm (x0 : Vec Ideal S10000x128 .bf16) (x1 : Vec Ideal S128x64 .bf16) :
    k0_pay1 x0 x1 = MatProd.mm x0 x1 := by
  unfold k0_pay1
  simp only [shapeCast_self]
  exact MatProd.matmul_zero_mm plain0 none x0 x1

/-- The printed index maps, decided over the ten grid points: the left factor's and the output's blocks are at block
    row t, column 0; the right factor's block is at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point t is rows 10000 t, ... of the array the region finds. -/
theorem lblk0 (c : Dev nD) (t : Fin cfg0.N) (x : S10000x128.Idx) (i : S100000x128.Idx)
    (h0 : (i 0).val = 10000 * t.val + (x 0).val) (h1 : (i 1).val = (x 1).val) :
    (iblk0 V c 0 t : Vec Ideal S10000x128 .bf16) x = (V c main_v32 : S100000x128.Idx → EReal) i := by
  obtain ⟨e0, e1, -⟩ := idx0 t
  unfold iblk0
  rw [View.read_apply]
  show V c main_v32 _ = V c main_v32 _
  congr 1
  funext a
  apply Fin.ext
  match a with
  | ⟨0, _⟩ => show win0_0.index t (0 : Fin 2) * 10000 + 1 * (x 0).val = (i 0).val; rw [e0, h0]; omega
  | ⟨1, _⟩ => show win0_0.index t (1 : Fin 2) * 128 + 1 * (x 1).val = (i 1).val; rw [e1, h1]; omega

/-- The right factor's block at every point is the whole array the region finds. -/
theorem rblk0 (c : Dev nD) (t : Fin cfg0.N) (y : S128x64.Idx) :
    (iblk0 V c 1 t : Vec Ideal S128x64 .bf16) y = (V c main_v33 : S128x64.Idx → EReal) y := by
  obtain ⟨-, -, e0, e1, -⟩ := idx0 t
  unfold iblk0
  rw [View.read_apply]
  show V c main_v33 _ = V c main_v33 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- The product of the two arrays the region finds. -/
abbrev prod0 (c : Dev nD) : S100000x64.Idx → EReal :=
  MatProd.mm (V c main_v32 : S100000x128.Idx → EReal) (V c main_v33 : S128x64.Idx → EReal)

/-- What point t writes back is block t of the product. -/
theorem flushed0 (c : Dev nD) (t : Fin cfg0.N) :
    (dat0 (F := Ideal) V c).flushed 2 t = ((cfg0.win 2).blk t).view.read (Elt Ideal) (prod0 V c) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x64) origin2]
  rw [pay0_mm]
  obtain ⟨-, -, -, -, e0, e1⟩ := idx0 t
  funext j
  show MatProd.mm (iblk0 V c 0 t : Vec Ideal S10000x128 .bf16) (iblk0 V c 1 t : Vec Ideal S128x64 .bf16) j
    = prod0 V c (((cfg0.win 2).blk t).view.emb j)
  refine mm_rows _ _ _ _ (10000 * t.val) (fun x i h0 h1 => lblk0 V c t x i h0 h1) (fun y => rblk0 V c t y) j _ ?_ ?_
  · show win0_2.index t (0 : Fin 2) * 10000 + 1 * (j 0).val = 10000 * t.val + (j 0).val; rw [e0]; omega
  · show win0_2.index t (1 : Fin 2) * 64 + 1 * (j 1).val = (j 1).val; rw [e1]; omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v34).slice (win0_2.rect t)).set ↔ _
  rw [View.set_slice_whole, Rect.mem_set_unit]
  exact Iff.rfl

/-- Every row of the output is in the band of the point (row / 10000). -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  have ht : t.val = (i 0).val / 10000 := rfl
  obtain ⟨-, -, -, -, e0, e1⟩ := idx0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    rw [e0, ht]; omega
  | ⟨1, _⟩ =>
    show win0_2.index t (1 : Fin 2) * 64 ≤ (i 1).val ∧ (i 1).val < win0_2.index t (1 : Fin 2) * 64 + 64
    rw [e1]; omega

/-- THE REGION'S VALUE: after the ten write-backs the output array is the product of the two arrays the region finds. -/
theorem reg0_val (c : Dev nD) :
    ((Gen.dat0 (F := Ideal) V c).arrAt 2 cfg0.N : S100000x64.Idx → EReal)
      = MatProd.mm (V c main_v32 : S100000x128.Idx → EReal) (V c main_v33 : S128x64.Idx → EReal) :=
  (dat0 (F := Ideal) V c).arrAt_eq_of_cover 2 (prod0 V c) (fun t _ => flushed0 V c t) cover0

end

end Cert.KernelIdeal.RegVal

end
-- ==== Proof.Rows.lean ====
/-
  Two row-wise functions of a matrix and a vector, over the extended reals.

  "addRows a b" adds the vector b to every row of the matrix a: entry (p, q) is a(p, q) + b(q).
  "reluRows a b" does the same and then cuts every entry off below at the zero word's value:
  entry (p, q) is max (a(p, q) + b(q)) 0.  The zero is kept as the value the all-zero 32-bit word
  denotes; nothing here depends on which extended real that is.
-/
import Idealize.ShloMosaic.Lib.ValueIdx
import Idealize.ShloMosaic.PureOps.Ideal.Laws

noncomputable section

namespace Rows

open Idealize.ShloMosaic Idealize.ShloMosaic.ValueIdx

/-- The vector added to every row of the matrix. -/
def addRows {n k : ℕ} (a : (⟨2, ![n, k]⟩ : Shape).Idx → EReal) (b : (⟨1, ![k]⟩ : Shape).Idx → EReal) :
    (⟨2, ![n, k]⟩ : Shape).Idx → EReal :=
  fun i => a i + b (ix1 ⟨(i 1).val, idx2_lt1 i⟩)

/-- The vector added to every row of the matrix, every entry then cut off below at zero. -/
def reluRows {n k : ℕ} (a : (⟨2, ![n, k]⟩ : Shape).Idx → EReal) (b : (⟨1, ![k]⟩ : Shape).Idx → EReal) :
    (⟨2, ![n, k]⟩ : Shape).Idx → EReal :=
  fun i => max (a i + b (ix1 ⟨(i 1).val, idx2_lt1 i⟩)) (Ideal.ofBits .f32 0x00000000#32)

/-- An entry of the sum. -/
theorem addRows_apply {n k : ℕ} (a : (⟨2, ![n, k]⟩ : Shape).Idx → EReal) (b : (⟨1, ![k]⟩ : Shape).Idx → EReal)
    (i : (⟨2, ![n, k]⟩ : Shape).Idx) : addRows a b i = a i + b (ix1 ⟨(i 1).val, idx2_lt1 i⟩) := rfl

/-- An entry of the cut-off sum. -/
theorem reluRows_apply {n k : ℕ} (a : (⟨2, ![n, k]⟩ : Shape).Idx → EReal) (b : (⟨1, ![k]⟩ : Shape).Idx → EReal)
    (i : (⟨2, ![n, k]⟩ : Shape).Idx) :
    reluRows a b i = max (a i + b (ix1 ⟨(i 1).val, idx2_lt1 i⟩)) (Ideal.ofBits .f32 0x00000000#32) := rfl

/-- An entry of the cut-off sum is at least the zero it was cut off at. -/
theorem zero_le_reluRows {n k : ℕ} (a : (⟨2, ![n, k]⟩ : Shape).Idx → EReal) (b : (⟨1, ![k]⟩ : Shape).Idx → EReal)
    (i : (⟨2, ![n, k]⟩ : Shape).Idx) : Ideal.ofBits .f32 0x00000000#32 ≤ reluRows a b i := le_max_right _ _

end Rows

end
-- ==== Proof.Reg1.lean ====
/-
  The second region's result: the bias row added to every row of the aggregated array, cut off below at zero.

  The region walks over the 100000 rows in ten blocks of 10000.  At each block it loads the block of the
  aggregated array and the whole bias vector of 64, gives the vector a leading axis of extent one, stretches it over
  the 10000 rows, adds, takes the maximum with zero, and stores the block.  Entry (p, q) of the stored block is
  max (a(p, q) + b(q)) 0; block t of the input and block t of the output sit at the same rows 10000·t …, and the
  ten blocks cover the array, so the array ends as the row-wise function of the two inputs.
-/
import proofs.«113970_j5162550690524_1_alg».proof.Proof.Gen.KernelIdeal.Frame
import proofs.«113970_j5162550690524_1_alg».proof.Proof.Rows
import Idealize.ShloMosaic.Lib.Pipeline.Value
import Idealize.ShloMosaic.Lib.ValueLayout

noncomputable section

namespace Cert.KernelIdeal.RegVal

open Idealize.ShloMosaic Idealize.ShloMosaic.TcCoe Idealize.ShloMosaic.ValueIdx Idealize.SL.Sem
open Cert.KernelIdeal Cert.KernelIdeal.Gen
open Idealize.ShloMosaic.Pipeline (Dat)

/-- The vector of 64, given a leading axis of extent one and stretched over 10000 rows, read at (p, q): its entry q. -/
theorem stretch64 (x1 : Vec Ideal S64 .f32) (h1 : S64.ShapeCasts S1x64) (h2 : S1x64.ShapeCasts S1x64)
    (h3 : S1x64.Broadcasts S10000x64) (p : Fin 10000) (q : Fin 64) :
    broadcastTo S10000x64 (shapeCast S1x64 (shapeCast S1x64 x1 h1) h2) h3 (ix2 p q) = x1 (ix1 q) := by
  refine (broadcastTo_apply _ h3 (ix2 p q) (ix2 ⟨0, Nat.one_pos⟩ q) fun a => ?_).trans ?_
  · match a with
    | ⟨0, _⟩ => rfl
    | ⟨1, _⟩ => rfl
  · rw [shapeCast_self]
    refine (shapeCast_addUnit_apply (n := 1) ![64] x1 h1 _).trans ?_
    exact congrArg x1 (funext fun a => by match a with | ⟨0, _⟩ => rfl)

/-- An entry of the stored block: the entry of the loaded block plus the bias entry of its column, cut off at zero. -/
theorem pay1_ix (x0 : Vec Ideal S10000x64 .f32) (x1 : Vec Ideal S64 .f32) (p : Fin 10000) (q : Fin 64) :
    k1_pay1 x0 x1 (ix2 p q) = max (x0 (ix2 p q) + x1 (ix1 q)) (Ideal.ofBits .f32 0x00000000#32) := by
  unfold k1_pay1
  refine congrArg₂ max (congrArg₂ (· + ·) ?_ ?_) rfl
  · exact congrFun (shapeCast_self x0 _) _
  · exact stretch64 x1 _ _ _ p q

/-- The same at any index of the block. -/
theorem pay1_apply (x0 : Vec Ideal S10000x64 .f32) (x1 : Vec Ideal S64 .f32) (j : S10000x64.Idx) :
    k1_pay1 x0 x1 j = max (x0 j + x1 (ix1 ⟨(j 1).val, idx2_lt1 j⟩)) (Ideal.ofBits .f32 0x00000000#32) := by
  obtain ⟨p, q, rfl⟩ : ∃ (p : Fin 10000) (q : Fin 64), j = ix2 p q := ⟨j 0, j 1, eq_ix2 j⟩
  exact pay1_ix x0 x1 p q

/-! ## From the blocks to the array -/

variable (V : (c : Dev nD) → (b : Ref sig .tc) → Buf (Elt Ideal) ((c : Thread nD τ).loc b))

theorem zeros2_1 : (![0, 0] : Fin 2 → Nat) = fun _ => 0 := funext fun a => by fin_cases a <;> rfl
theorem zeros1_1 : (![0] : Fin 1 → Nat) = fun _ => 0 := funext fun a => by fin_cases a; rfl

/-- Where the three windows' blocks sit at grid point t: input and output at block row t, the bias vector whole. -/
theorem blockRows1 : ∀ t : Fin cfg1.N, win1_0.index t (0 : Fin 2) = win1_2.index t (0 : Fin 2)
    ∧ win1_0.index t (1 : Fin 2) = 0 ∧ win1_2.index t (1 : Fin 2) = 0 ∧ win1_1.index t (0 : Fin 1) = 0
    ∧ win1_2.index t (0 : Fin 2) ≤ 9 :=
  (by decide +kernel : ∀ t : Fin grid1.N, _)

/-- Every block row is some grid point's. -/
theorem blockRows1_onto : ∀ r : Fin 10, ∃ t : Fin cfg1.N, win1_2.index t = ![r.val, 0] :=
  (by decide +kernel : ∀ r : Fin 10, ∃ t : Fin grid1.N, win1_2.index t = ![r.val, 0])

/-- What grid point t writes back is block t of the row-wise function of the two input arrays. -/
theorem flushed1_eq (c : Dev nD) (t : Fin cfg1.N) :
    (dat1 (F := Ideal) V c).flushed 2 t
      = ((cfg1.win 2).blk t).view.read (Elt Ideal) (Rows.reluRows (V c main_v47 : S100000x64.Idx → EReal) (V c main_arg4 : S64.Idx → EReal)) := by
  show (cfg1.win 2).cut (grid1.coords t) ((dat1 V c).after 2 t) = _
  rw [after1_2]
  unfold out1_2
  rw [View.canon_unit_zero zeros2_1]
  simp only [View.ld_unit_zero (S := S10000x64) zeros2_1, View.ld_unit_zero (S := S64) zeros1_1]
  obtain ⟨e0, e1, e2, e3, e4⟩ := blockRows1 t
  funext j
  refine (pay1_apply _ _ _).trans ?_
  refine congrArg₂ max (congrArg₂ (· + ·) ?_ ?_) rfl
  · show V c main_v47 (((cfg1.win 0).blk t).view.emb j) = V c main_v47 (((cfg1.win 2).blk t).view.emb j)
    refine congrArg _ (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 64 + 1 * (j 1).val = win1_2.index t (1 : Fin 2) * 64 + 1 * (j 1).val
      omega
  · show V c main_arg4 (((cfg1.win 1).blk t).view.emb (ix1 ⟨(j 1).val, _⟩))
        = V c main_arg4 (ix1 ⟨((((cfg1.win 2).blk t).view.emb j) 1).val, _⟩)
    refine congrArg _ (funext fun a => Fin.ext ?_)
    match a with
    | ⟨0, _⟩ =>
      show win1_1.index t (0 : Fin 1) * 64 + 1 * (j 1).val = win1_2.index t (1 : Fin 2) * 64 + 1 * (j 1).val
      omega

/-- An index of the array is in grid point t's block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v48).slice (win1_2.rect t)).set ↔ _
  rw [View.set_slice_whole, Rect.mem_set_unit]
  exact Iff.rfl

/-- Row r of the array lies in the block of the grid point whose block row is r divided by 10000: the ten blocks
    cover the array. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := blockRows1_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- THE REGION'S RESULT: the output array after the ten write-backs is the bias row added to every row of the
    input array, cut off below at zero. -/
theorem reg1_val (c : Dev nD) :
    ((Gen.dat1 (F := Ideal) V c).arrAt 2 cfg1.N : S100000x64.Idx → EReal)
      = Rows.reluRows (V c main_v47 : S100000x64.Idx → EReal) (V c main_arg4 : S64.Idx → EReal) :=
  (dat1 (F := Ideal) V c).arrAt_eq_of_cover 2 _ (fun t _ => flushed1_eq V c t) cover1

end Cert.KernelIdeal.RegVal

end
-- ==== Proof.Reg2.lean ====
/-
  Region 2: the array the second matrix-product kernel leaves.

  As in region 0, with the hidden array in place of the node features: point t stages rows 10000 t, ... of the
  100000 x 64 left factor and the whole 64 x 32 right factor, multiplies them onto a zero accumulator, and writes the
  10000 x 32 result back as rows 10000 t, ... of the output.  The ten bands tile the rows, so the output array is the
  product of the two arrays the region finds.  The band law for products is the general one of region 0's module.
-/
import proofs.«113970_j5162550690524_1_alg».proof.Proof.Gen.KernelIdeal.Frame
import proofs.«113970_j5162550690524_1_alg».proof.Proof.LibMatProd
import proofs.«113970_j5162550690524_1_alg».proof.Proof.LibProdRows
import proofs.«113970_j5162550690524_1_alg».proof.Proof.LibBand
import proofs.«113970_j5162550690524_1_alg».proof.Proof.LibDot2
import proofs.«113970_j5162550690524_1_alg».proof.Proof.Reg0
import Idealize.ShloMosaic.Lib.Pipeline.Value
import Idealize.ShloMosaic.Lib.ValueIdx
import Idealize.ShloMosaic.PureOps.Ideal.Laws

noncomputable section

namespace Cert.KernelIdeal.RegVal

open Idealize.ShloMosaic Idealize.ShloMosaic.TcCoe Idealize.SL.Sem Cert.KernelIdeal Cert.KernelIdeal.Gen
open Idealize.ShloMosaic.Pipeline (Dat)
open Idealize.ShloMosaic.ValueIdx

section
variable (V : (c : Dev nD) → (b : Ref sig .tc) → Buf (Elt Ideal) ((c : Thread nD τ).loc b))

/-- The kernel's dimension numbers are a plain product's. -/
theorem plain2 : MatProd.Plain dot_S10000x64_S64x32_S10000x32_1_0_0_1_n_n where
  hr := Dot2.rank_contr _ rfl
  hs := Dot2.size_contr _ rfl _
  hl0 := Dot2.lhs0 _ rfl rfl
  hl1 := Dot2.lhs1 _ rfl _
  hr0 := Dot2.rhs0 _ rfl _
  hr1 := Dot2.rhs1 _ rfl rfl rfl rfl

/-- The body's arithmetic on two staged blocks is their product. -/
theorem pay2_mm (x0 : Vec Ideal S10000x64 .bf16) (x1 : Vec Ideal S64x32 .bf16) :
    k2_pay1 x0 x1 = MatProd.mm x0 x1 := by
  unfold k2_pay1
  simp only [shapeCast_self]
  exact MatProd.matmul_zero_mm plain2 none x0 x1

/-- The printed index maps, decided over the ten grid points: the left factor's and the output's blocks are at block
    row t, column 0; the right factor's block is at the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left factor's block at point t is rows 10000 t, ... of the array the region finds. -/
theorem lblk2 (c : Dev nD) (t : Fin cfg2.N) (x : S10000x64.Idx) (i : S100000x64.Idx)
    (h0 : (i 0).val = 10000 * t.val + (x 0).val) (h1 : (i 1).val = (x 1).val) :
    (iblk2 V c 0 t : Vec Ideal S10000x64 .bf16) x = (V c main_v49 : S100000x64.Idx → EReal) i := by
  obtain ⟨e0, e1, -⟩ := idx2 t
  unfold iblk2
  rw [View.read_apply]
  show V c main_v49 _ = V c main_v49 _
  congr 1
  funext a
  apply Fin.ext
  match a with
  | ⟨0, _⟩ => show win2_0.index t (0 : Fin 2) * 10000 + 1 * (x 0).val = (i 0).val; rw [e0, h0]; omega
  | ⟨1, _⟩ => show win2_0.index t (1 : Fin 2) * 64 + 1 * (x 1).val = (i 1).val; rw [e1, h1]; omega

/-- The right factor's block at every point is the whole array the region finds. -/
theorem rblk2 (c : Dev nD) (t : Fin cfg2.N) (y : S64x32.Idx) :
    (iblk2 V c 1 t : Vec Ideal S64x32 .bf16) y = (V c main_v50 : S64x32.Idx → EReal) y := by
  obtain ⟨-, -, e0, e1, -⟩ := idx2 t
  unfold iblk2
  rw [View.read_apply]
  show V c main_v50 _ = V c main_v50 _
  congr 1
  funext a
  apply Fin.ext
  match a with
  | ⟨0, _⟩ => show win2_1.index t (0 : Fin 2) * 64 + 1 * (y 0).val = (y 0).val; rw [e0]; omega
  | ⟨1, _⟩ => show win2_1.index t (1 : Fin 2) * 32 + 1 * (y 1).val = (y 1).val; rw [e1]; omega

/-- The product of the two arrays the region finds. -/
abbrev prod2 (c : Dev nD) : S100000x32.Idx → EReal :=
  MatProd.mm (V c main_v49 : S100000x64.Idx → EReal) (V c main_v50 : S64x32.Idx → EReal)

/-- What point t writes back is block t of the product. -/
theorem flushed2 (c : Dev nD) (t : Fin cfg2.N) :
    (dat2 (F := Ideal) V c).flushed 2 t = ((cfg2.win 2).blk t).view.read (Elt Ideal) (prod2 V c) := by
  show (cfg2.win 2).cut (grid2.coords t) ((dat2 V c).after 2 t) = _
  rw [after2_2]
  unfold out2_2
  rw [View.canon_unit_zero origin2]
  simp only [View.ld_unit_zero (S := S10000x64) origin2, View.ld_unit_zero (S := S64x32) origin2]
  rw [pay2_mm]
  obtain ⟨-, -, -, -, e0, e1⟩ := idx2 t
  funext j
  show MatProd.mm (iblk2 V c 0 t : Vec Ideal S10000x64 .bf16) (iblk2 V c 1 t : Vec Ideal S64x32 .bf16) j
    = prod2 V c (((cfg2.win 2).blk t).view.emb j)
  refine mm_rows _ _ _ _ (10000 * t.val) (fun x i h0 h1 => lblk2 V c t x i h0 h1) (fun y => rblk2 V c t y) j _ ?_ ?_
  · show win2_2.index t (0 : Fin 2) * 10000 + 1 * (j 0).val = 10000 * t.val + (j 0).val; rw [e0]; omega
  · show win2_2.index t (1 : Fin 2) * 32 + 1 * (j 1).val = (j 1).val; rw [e1]; omega

/-- An index of the output array is in point t's block iff each coordinate is in the block's range on its axis. -/
theorem mem_blk2 (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v51).slice (win2_2.rect t)).set ↔ _
  rw [View.set_slice_whole, Rect.mem_set_unit]
  exact Iff.rfl

/-- Every row of the output is in the band of the point (row / 10000). -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  let t : Fin cfg2.N := ⟨(i 0).val / 10000, by rw [hN]; omega⟩
  have ht : t.val = (i 0).val / 10000 := rfl
  obtain ⟨-, -, -, -, e0, e1⟩ := idx2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    rw [e0, ht]; omega
  | ⟨1, _⟩ =>
    show win2_2.index t (1 : Fin 2) * 32 ≤ (i 1).val ∧ (i 1).val < win2_2.index t (1 : Fin 2) * 32 + 32
    rw [e1]; omega

/-- THE REGION'S VALUE: after the ten write-backs the output array is the product of the two arrays the region finds. -/
theorem reg2_val (c : Dev nD) :
    ((Gen.dat2 (F := Ideal) V c).arrAt 2 cfg2.N : S100000x32.Idx → EReal)
      = MatProd.mm (V c main_v49 : S100000x64.Idx → EReal) (V c main_v50 : S64x32.Idx → EReal) :=
  (dat2 (F := Ideal) V c).arrAt_eq_of_cover 2 (prod2 V c) (fun t _ => flushed2 V c t) cover2

end

end Cert.KernelIdeal.RegVal

end
-- ==== Proof.Reg3.lean ====
/-
  The last region's result: the bias row added to every row of the second aggregated array.

  The region walks over the 100000 rows in ten blocks of 10000.  At each block it loads the block of the
  aggregated array and the whole bias vector of 32, gives the vector a leading axis of extent one, stretches it over
  the 10000 rows, adds, and stores the block.  Entry (p, q) of the stored block is a(p, q) + b(q); block t of the
  input and block t of the output sit at the same rows 10000·t …, and the ten blocks cover the array, so the array
  ends as the row-wise sum of the two inputs.
-/
import proofs.«113970_j5162550690524_1_alg».proof.Proof.Gen.KernelIdeal.Frame
import proofs.«113970_j5162550690524_1_alg».proof.Proof.Rows
import Idealize.ShloMosaic.Lib.Pipeline.Value
import Idealize.ShloMosaic.Lib.ValueLayout

noncomputable section

namespace Cert.KernelIdeal.RegVal

open Idealize.ShloMosaic Idealize.ShloMosaic.TcCoe Idealize.ShloMosaic.ValueIdx Idealize.SL.Sem
open Cert.KernelIdeal Cert.KernelIdeal.Gen
open Idealize.ShloMosaic.Pipeline (Dat)

/-- The vector of 32, given a leading axis of extent one and stretched over 10000 rows, read at (p, q): its entry q. -/
theorem stretch32 (x1 : Vec Ideal S32 .f32) (h1 : S32.ShapeCasts S1x32) (h2 : S1x32.ShapeCasts S1x32)
    (h3 : S1x32.Broadcasts S10000x32) (p : Fin 10000) (q : Fin 32) :
    broadcastTo S10000x32 (shapeCast S1x32 (shapeCast S1x32 x1 h1) h2) h3 (ix2 p q) = x1 (ix1 q) := by
  refine (broadcastTo_apply _ h3 (ix2 p q) (ix2 ⟨0, Nat.one_pos⟩ q) fun a => ?_).trans ?_
  · match a with
    | ⟨0, _⟩ => rfl
    | ⟨1, _⟩ => rfl
  · rw [shapeCast_self]
    refine (shapeCast_addUnit_apply (n := 1) ![32] x1 h1 _).trans ?_
    exact congrArg x1 (funext fun a => by match a with | ⟨0, _⟩ => rfl)

/-- An entry of the stored block: the entry of the loaded block plus the bias entry of its column. -/
theorem pay3_ix (x0 : Vec Ideal S10000x32 .f32) (x1 : Vec Ideal S32 .f32) (p : Fin 10000) (q : Fin 32) :
    k3_pay1 x0 x1 (ix2 p q) = x0 (ix2 p q) + x1 (ix1 q) := by
  unfold k3_pay1
  refine congrArg₂ (· + ·) ?_ ?_
  · exact congrFun (shapeCast_self x0 _) _
  · exact stretch32 x1 _ _ _ p q

/-- The same at any index of the block. -/
theorem pay3_apply (x0 : Vec Ideal S10000x32 .f32) (x1 : Vec Ideal S32 .f32) (j : S10000x32.Idx) :
    k3_pay1 x0 x1 j = x0 j + x1 (ix1 ⟨(j 1).val, idx2_lt1 j⟩) := by
  obtain ⟨p, q, rfl⟩ : ∃ (p : Fin 10000) (q : Fin 32), j = ix2 p q := ⟨j 0, j 1, eq_ix2 j⟩
  exact pay3_ix x0 x1 p q

/-! ## From the blocks to the array -/

variable (V : (c : Dev nD) → (b : Ref sig .tc) → Buf (Elt Ideal) ((c : Thread nD τ).loc b))

theorem zeros2_3 : (![0, 0] : Fin 2 → Nat) = fun _ => 0 := funext fun a => by fin_cases a <;> rfl
theorem zeros1_3 : (![0] : Fin 1 → Nat) = fun _ => 0 := funext fun a => by fin_cases a; rfl

/-- Where the three windows' blocks sit at grid point t: input and output at block row t, the bias vector whole. -/
theorem blockRows3 : ∀ t : Fin cfg3.N, win3_0.index t (0 : Fin 2) = win3_2.index t (0 : Fin 2)
    ∧ win3_0.index t (1 : Fin 2) = 0 ∧ win3_2.index t (1 : Fin 2) = 0 ∧ win3_1.index t (0 : Fin 1) = 0
    ∧ win3_2.index t (0 : Fin 2) ≤ 9 :=
  (by decide +kernel : ∀ t : Fin grid3.N, _)

/-- Every block row is some grid point's. -/
theorem blockRows3_onto : ∀ r : Fin 10, ∃ t : Fin cfg3.N, win3_2.index t = ![r.val, 0] :=
  (by decide +kernel : ∀ r : Fin 10, ∃ t : Fin grid3.N, win3_2.index t = ![r.val, 0])

/-- What grid point t writes back is block t of the row-wise function of the two input arrays. -/
theorem flushed3_eq (c : Dev nD) (t : Fin cfg3.N) :
    (dat3 (F := Ideal) V c).flushed 2 t
      = ((cfg3.win 2).blk t).view.read (Elt Ideal) (Rows.addRows (V c main_v64 : S100000x32.Idx → EReal) (V c main_arg6 : S32.Idx → EReal)) := by
  show (cfg3.win 2).cut (grid3.coords t) ((dat3 V c).after 2 t) = _
  rw [after3_2]
  unfold out3_2
  rw [View.canon_unit_zero zeros2_3]
  simp only [View.ld_unit_zero (S := S10000x32) zeros2_3, View.ld_unit_zero (S := S32) zeros1_3]
  obtain ⟨e0, e1, e2, e3, e4⟩ := blockRows3 t
  funext j
  refine (pay3_apply _ _ _).trans ?_
  refine congrArg₂ (· + ·) ?_ ?_
  · show V c main_v64 (((cfg3.win 0).blk t).view.emb j) = V c main_v64 (((cfg3.win 2).blk t).view.emb j)
    refine congrArg _ (funext fun a => Fin.ext ?_)
    match a with
    | ⟨0, _⟩ =>
      show win3_0.index t (0 : Fin 2) * 10000 + 1 * (j 0).val = win3_2.index t (0 : Fin 2) * 10000 + 1 * (j 0).val
      omega
    | ⟨1, _⟩ =>
      show win3_0.index t (1 : Fin 2) * 32 + 1 * (j 1).val = win3_2.index t (1 : Fin 2) * 32 + 1 * (j 1).val
      omega
  · show V c main_arg6 (((cfg3.win 1).blk t).view.emb (ix1 ⟨(j 1).val, _⟩))
        = V c main_arg6 (ix1 ⟨((((cfg3.win 2).blk t).view.emb j) 1).val, _⟩)
    refine congrArg _ (funext fun a => Fin.ext ?_)
    match a with
    | ⟨0, _⟩ =>
      show win3_1.index t (0 : Fin 1) * 32 + 1 * (j 1).val = win3_2.index t (1 : Fin 2) * 32 + 1 * (j 1).val
      omega

/-- An index of the array is in grid point t's block iff each coordinate is in the block's range on its axis. -/
theorem mem_block3 (t : Fin cfg3.N) (i : S100000x32.Idx) :
    i ∈ ((cfg3.win 2).blk t).view.set ↔ ∀ a : Fin 2, win3_2.index t a * S10000x32.size a ≤ (i a).val
      ∧ (i a).val < win3_2.index t a * S10000x32.size a + S10000x32.size a := by
  show i ∈ ((View.whole main_v65).slice (win3_2.rect t)).set ↔ _
  rw [View.set_slice_whole, Rect.mem_set_unit]
  exact Iff.rfl

/-- Row r of the array lies in the block of the grid point whose block row is r divided by 10000: the ten blocks
    cover the array. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  obtain ⟨t, ht⟩ := blockRows3_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 32 ≤ (i 1).val ∧ (i 1).val < win3_2.index t (1 : Fin 2) * 32 + 32
    omega

/-- THE REGION'S RESULT: the output array after the ten write-backs is the bias row added to every row of the
    input array. -/
theorem reg3_val (c : Dev nD) :
    ((Gen.dat3 (F := Ideal) V c).arrAt 2 cfg3.N : S100000x32.Idx → EReal)
      = Rows.addRows (V c main_v64 : S100000x32.Idx → EReal) (V c main_arg6 : S32.Idx → EReal) :=
  (dat3 (F := Ideal) V c).arrAt_eq_of_cover 2 _ (fun t _ => flushed3_eq V c t) cover3

end Cert.KernelIdeal.RegVal

end
-- ==== Proof.Stages.lean ====
/-
  The reference network written stage by stage, as pure functions of arrays.

  A graph of 100 000 nodes carries 1 600 000 weighted edges; every node also gets a self loop of weight 1, so there
  are 1 700 000 messages.  Row 0 of the edge array holds the sources and row 1 the targets.  The degree of a node is
  the sum of the weights of the messages that arrive at it; a message from s to d with weight w is scaled by
  rsqrt(deg s) * w * rsqrt(deg d), where a node of non-positive degree counts with the factor 0.  One layer sends
  every row h(s) of a node array along the messages, scales it, and adds it up at the target; then a bias row is
  added.  After the first layer the negative entries are cut off at zero, and the cut-off array goes through a second
  cut (keep an entry that is at least zero, else a hundredth of it).  The second layer follows a product with a
  second weight matrix.  Each definition below is the composition of the reference's own operations, in its order.
-/
import proofs.«113970_j5162550690524_1_alg».proof.ReferenceIdeal
import proofs.«113970_j5162550690524_1_alg».proof.Proof.Gen.ReferenceIdeal

noncomputable section

namespace Cert.ReferenceIdeal.Stages

open Idealize.ShloMosaic Cert.ReferenceIdeal Cert.ReferenceIdeal.Facts₀

variable {F : FTy → Type} [FloatOps F]

/-- Endpoints: row 0 of the edge array (the sources), then the self loops 0, 1, 2, … -/
def ends0 (ei : (⟨S2x1600000, .i32⟩ : BufTy).Contents (Elt F)) : (⟨S1700000, .i32⟩ : BufTy).Contents (Elt F) :=
  concatenate S1700000 0
    [⟨S1600000, fun i => shapeCast S1600000 (extractStridedSlice S1x1600000 ![0, 0] ei slices_S2x1600000_S1x1600000_0_0)
        shapeCasts_S1x1600000_S1600000 i⟩,
     ⟨S100000, iotaInDim S100000 32 0⟩] concatenates_S1600000_S100000_S1700000_d0

/-- Endpoints: row 1 of the edge array (the targets), then the self loops. -/
def ends1 (ei : (⟨S2x1600000, .i32⟩ : BufTy).Contents (Elt F)) : (⟨S1700000, .i32⟩ : BufTy).Contents (Elt F) :=
  concatenate S1700000 0
    [⟨S1600000, fun i => shapeCast S1600000 (extractStridedSlice S1x1600000 ![1, 0] ei slices_S2x1600000_S1x1600000_1_0)
        shapeCasts_S1x1600000_S1600000 i⟩,
     ⟨S100000, iotaInDim S100000 32 0⟩] concatenates_S1600000_S100000_S1700000_d0

/-- Message weights: the edge weights, then 1 for every self loop. -/
def wts (ew : (⟨S1600000, .f32⟩ : BufTy).Contents (Elt F)) : (⟨S1700000, .f32⟩ : BufTy).Contents (Elt F) :=
  concatenate S1700000 0
    [⟨S1600000, ew⟩, ⟨S100000, broadcastInDim S100000 ![] bcast_S_S100000 (constant S_ .f32 0x3F800000#32)⟩]
    concatenates_S1600000_S100000_S1700000_d0

/-- A list of node numbers as a one-column index array, a negative number counted from the end. -/
def wrap (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Per node: rsqrt of the summed weight arriving at it, or 0 where that sum is not positive. -/
def dinv (d : (⟨S1700000, .i32⟩ : BufTy).Contents (Elt F)) (w : (⟨S1700000, .f32⟩ : BufTy).Contents (Elt F)) :
    (⟨S100000, .f32⟩ : BufTy).Contents (Elt F) :=
  select
    (cmpf .ogt
      (Host.scatterAdd scatter_S100000_S1700000x1_S1700000_n_0_0_1
        (broadcastInDim S100000 ![] bcast_S_S100000 (constant S_ .f32 0x00000000#32))
        (broadcastInDim S1700000x1 ![0] bcast_S1700000_S1700000x1_0 d) w)
      (broadcastInDim S100000 ![] bcast_S_S100000 (constant S_ .f32 0x00000000#32)))
    (Host.rsqrt
      (Host.scatterAdd scatter_S100000_S1700000x1_S1700000_n_0_0_1
        (broadcastInDim S100000 ![] bcast_S_S100000 (constant S_ .f32 0x00000000#32))
        (broadcastInDim S1700000x1 ![0] bcast_S1700000_S1700000x1_0 d) w))
    (broadcastInDim S100000 ![] bcast_S_S100000 (id (constant S_ .f32 0x00000000#32)))

/-- Per message: the factor of its source, times its weight, times the factor of its target. -/
def nrm (s d : (⟨S1700000, .i32⟩ : BufTy).Contents (Elt F)) (w : (⟨S1700000, .f32⟩ : BufTy).Contents (Elt F)) :
    (⟨S1700000, .f32⟩ : BufTy).Contents (Elt F) :=
  mulf
    (mulf (Host.gather gather_S100000_S1700000x1_S1700000_n_0_n_n_0_1_1 (dinv d w) (wrap s)) w)
    (Host.gather gather_S100000_S1700000x1_S1700000_n_0_n_n_0_1_1 (dinv d w) (wrap d))

/-- One aggregation over rows of 64: the row of every message's source, scaled, summed at the message's target. -/
def agg64 (h : (⟨S100000x64, .f32⟩ : BufTy).Contents (Elt F)) (s d : (⟨S1700000, .i32⟩ : BufTy).Contents (Elt F))
    (n : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (Host.gather gather_S100000x64_S1700000x1_S1700000x64_1_0_n_n_0_1_164 h (wrap s))
      (broadcastInDim S1700000x64 ![0, 1] bcast_S1700000x1_S1700000x64_0_1
        (broadcastInDim S1700000x1 ![0] bcast_S1700000_S1700000x1_0 n)))

/-- The same aggregation over rows of 32. -/
def agg32 (h : (⟨S100000x32, .f32⟩ : BufTy).Contents (Elt F)) (s d : (⟨S1700000, .i32⟩ : BufTy).Contents (Elt F))
    (n : (⟨S1700000, .f32⟩ : BufTy).Contents (Elt F)) : (⟨S100000x32, .f32⟩ : BufTy).Contents (Elt F) :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 d)
    (mulf (Host.gather gather_S100000x32_S1700000x1_S1700000x32_1_0_n_n_0_1_132 h (wrap s))
      (broadcastInDim S1700000x32 ![0, 1] bcast_S1700000x1_S1700000x32_0_1
        (broadcastInDim S1700000x1 ![0] bcast_S1700000_S1700000x1_0 n)))

/-- The bias row added to every row of 64, cut off at zero. -/
def relu1 (a : (⟨S100000x64, .f32⟩ : BufTy).Contents (Elt F)) (b : (⟨S64, .f32⟩ : BufTy).Contents (Elt F)) :
    (⟨S100000x64, .f32⟩ : BufTy).Contents (Elt F) :=
  maximumf
    (addf a (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The second cut: an entry that is at least zero stays, any other becomes a hundredth of itself. -/
def leaky (h : (⟨S100000x64, .f32⟩ : BufTy).Contents (Elt F)) : (⟨S100000x64, .f32⟩ : BufTy).Contents (Elt F) :=
  select
    (cmpf .oge h (broadcastInDim S100000x64 ![] bcast_S_S100000x64 (constant S_ .f32 0x00000000#32)))
    h
    (mulf (broadcastInDim S100000x64 ![] bcast_S_S100000x64 (constant S_ .f32 0x3C23D70A#32)) h)

/-- The bias row added to every row of 32. -/
def bias2 (a : (⟨S100000x32, .f32⟩ : BufTy).Contents (Elt F)) (b : (⟨S32, .f32⟩ : BufTy).Contents (Elt F)) :
    (⟨S100000x32, .f32⟩ : BufTy).Contents (Elt F) :=
  addf a (broadcastInDim S100000x32 ![0, 1] bcast_S1x32_S100000x32_0_1 (broadcastInDim S1x32 ![1] bcast_S32_S1x32_1 b))

/-- The whole network around its two dense steps: "p1" is the array of hidden rows (first product), "q" takes the
    activated hidden layer to its product with the second weight matrix, "act" is the step after the first
    aggregation, "fin" the step after the second.  Both programs have this shape, each with its own spelling of the
    four pieces; the edge lists and the message factors are the same functions of the edge arrays in both. -/
def net (p1 : (⟨S100000x64, .f32⟩ : BufTy).Contents (Elt F))
    (q : (⟨S100000x64, .f32⟩ : BufTy).Contents (Elt F) → (⟨S100000x32, .f32⟩ : BufTy).Contents (Elt F))
    (act : (⟨S100000x64, .f32⟩ : BufTy).Contents (Elt F) → (⟨S100000x64, .f32⟩ : BufTy).Contents (Elt F))
    (fin : (⟨S100000x32, .f32⟩ : BufTy).Contents (Elt F) → (⟨S100000x32, .f32⟩ : BufTy).Contents (Elt F))
    (ei : (⟨S2x1600000, .i32⟩ : BufTy).Contents (Elt F)) (ew : (⟨S1600000, .f32⟩ : BufTy).Contents (Elt F)) :
    (⟨S100000x32, .f32⟩ : BufTy).Contents (Elt F) :=
  fin (agg32 (q (act (agg64 p1 (ends0 ei) (ends1 ei) (nrm (ends0 ei) (ends1 ei) (wts ew)))))
    (ends0 ei) (ends1 ei) (nrm (ends0 ei) (ends1 ei) (wts ew)))

/-- The reference's result as a function of its seven arguments. -/
def out (x : (⟨S100000x128, .f32⟩ : BufTy).Contents (Elt F)) (ei : (⟨S2x1600000, .i32⟩ : BufTy).Contents (Elt F))
    (ew : (⟨S1600000, .f32⟩ : BufTy).Contents (Elt F)) (W1 : (⟨S128x64, .f32⟩ : BufTy).Contents (Elt F))
    (b1 : (⟨S64, .f32⟩ : BufTy).Contents (Elt F)) (W2 : (⟨S64x32, .f32⟩ : BufTy).Contents (Elt F))
    (b2 : (⟨S32, .f32⟩ : BufTy).Contents (Elt F)) : (⟨S100000x32, .f32⟩ : BufTy).Contents (Elt F) :=
  net (Host.dotGeneral dot_S100000x128_S128x64_S100000x64_1_0_0_1_n_n none x W1)
    (fun h => Host.dotGeneral dot_S100000x64_S64x32_S100000x32_1_0_0_1_n_n none h W2)
    (fun a => leaky (relu1 a b1)) (fun a => bias2 a b2) ei ew

end Cert.ReferenceIdeal.Stages

end
-- ==== Proof.RefDots.lean ====
/-
  The reference's two contractions are matrix products.

  Both records carry the dimension numbers of a plain product: the columns of the left operand are contracted
  against the rows of the right operand, and there are no batch axes.  For such a record the contraction at (p, q)
  is the sum over l of left (p, l) * right (l, q), that is, the product array of the two operands.
-/
import proofs.«113970_j5162550690524_1_alg».proof.ReferenceIdeal
import proofs.«113970_j5162550690524_1_alg».proof.Proof.Gen.ReferenceIdeal
import proofs.«113970_j5162550690524_1_alg».proof.Proof.LibMatProd
import proofs.«113970_j5162550690524_1_alg».proof.Proof.LibProdRows
import proofs.«113970_j5162550690524_1_alg».proof.Proof.LibBand
import proofs.«113970_j5162550690524_1_alg».proof.Proof.LibDot2

noncomputable section

namespace Cert.ReferenceIdeal.RefDots

open Idealize.ShloMosaic Idealize.SL.Sem Cert.ReferenceIdeal Cert.ReferenceIdeal.Gen

/-- The first record (100000 × 128 by 128 × 64) is a plain product's. -/
theorem plain1 : MatProd.Plain dot_S100000x128_S128x64_S100000x64_1_0_0_1_n_n where
  hr := Dot2.rank_contr _ rfl
  hs := Dot2.size_contr _ rfl _
  hl0 := Dot2.lhs0 _ rfl rfl
  hl1 := Dot2.lhs1 _ rfl _
  hr0 := Dot2.rhs0 _ rfl _
  hr1 := Dot2.rhs1 _ rfl rfl rfl rfl

/-- The second record (100000 × 64 by 64 × 32) is a plain product's. -/
theorem plain2 : MatProd.Plain dot_S100000x64_S64x32_S100000x32_1_0_0_1_n_n where
  hr := Dot2.rank_contr _ rfl
  hs := Dot2.size_contr _ rfl _
  hl0 := Dot2.lhs0 _ rfl rfl
  hl1 := Dot2.lhs1 _ rfl _
  hr0 := Dot2.rhs0 _ rfl _
  hr1 := Dot2.rhs1 _ rfl rfl rfl rfl

/-- The first contraction is the product of the node features with the first weight matrix. -/
theorem dot1_mm (x : (⟨Cert.ReferenceIdeal.S100000x128, .f32⟩ : BufTy).Contents (Elt Ideal))
    (w : (⟨Cert.ReferenceIdeal.S128x64, .f32⟩ : BufTy).Contents (Elt Ideal)) :
    Host.dotGeneral (F := Ideal) (φ₁ := .f32) (φ₂ := .f32) Cert.ReferenceIdeal.dot_S100000x128_S128x64_S100000x64_1_0_0_1_n_n none x w = MatProd.mm x w :=
  MatProd.dotGeneral_mm plain1 none .single x w

/-- The second contraction is the product of the hidden array with the second weight matrix. -/
theorem dot2_mm (h : (⟨Cert.ReferenceIdeal.S100000x64, .f32⟩ : BufTy).Contents (Elt Ideal))
    (w : (⟨Cert.ReferenceIdeal.S64x32, .f32⟩ : BufTy).Contents (Elt Ideal)) :
    Host.dotGeneral (F := Ideal) (φ₁ := .f32) (φ₂ := .f32) Cert.ReferenceIdeal.dot_S100000x64_S64x32_S100000x32_1_0_0_1_n_n none h w = MatProd.mm h w :=
  MatProd.dotGeneral_mm plain2 none .single h w

end Cert.ReferenceIdeal.RefDots

end
-- ==== Proof.RefRows.lean ====
/-
  The reference's two bias steps as row-wise functions.

  After the first aggregation the reference adds the bias vector of 64 to every row (the vector is first given a
  leading axis of extent one, then stretched over the 100000 rows), cuts every entry off below at zero, and then
  passes the result through a second cut: an entry that is at least zero is kept, any other is replaced by a small
  multiple of itself.  Every entry of a maximum with zero is at least zero — on every extended real, the two
  infinities included — so the second cut keeps every entry and the small multiple is never used.  After the
  second aggregation the reference only adds the bias vector of 32 to every row.
-/
import proofs.«113970_j5162550690524_1_alg».proof.Proof.Stages
import proofs.«113970_j5162550690524_1_alg».proof.Proof.Rows
import Idealize.ShloMosaic.Lib.Pipeline.Value

noncomputable section

namespace Cert.ReferenceIdeal.RefRows

open Idealize.ShloMosaic Idealize.ShloMosaic.ValueIdx Cert.ReferenceIdeal Cert.ReferenceIdeal.Facts₀

/-- A vector of k entries, given a leading axis of extent one and then stretched over n rows, read at (p, q):
    the vector's entry q. -/
theorem stretch64 (b : (⟨S64, .f32⟩ : BufTy).Contents (Elt Ideal)) (i : S100000x64.Idx) :
    broadcastInDim S100000x64 ![0, 1] bcast_S1x64_S100000x64_0_1 (broadcastInDim S1x64 ![1] bcast_S64_S1x64_1 b) i
      = b (ix1 ⟨(i 1).val, idx2_lt1 i⟩) := by
  refine (broadcastInDim_apply _ _ _ i (ix2 ⟨0, Nat.one_pos⟩ ⟨(i 1).val, idx2_lt1 i⟩) fun a => ?_).trans ?_
  · match a with
    | ⟨0, _⟩ => rfl
    | ⟨1, _⟩ => rfl
  · refine broadcastInDim_apply _ _ _ _ (ix1 ⟨(i 1).val, idx2_lt1 i⟩) fun a => ?_
    match a with
    | ⟨0, _⟩ => rfl

/-- The same for the vector of 32. -/
theorem stretch32 (b : (⟨S32, .f32⟩ : BufTy).Contents (Elt Ideal)) (i : S100000x32.Idx) :
    broadcastInDim S100000x32 ![0, 1] bcast_S1x32_S100000x32_0_1 (broadcastInDim S1x32 ![1] bcast_S32_S1x32_1 b) i
      = b (ix1 ⟨(i 1).val, idx2_lt1 i⟩) := by
  refine (broadcastInDim_apply _ _ _ i (ix2 ⟨0, Nat.one_pos⟩ ⟨(i 1).val, idx2_lt1 i⟩) fun a => ?_).trans ?_
  · match a with
    | ⟨0, _⟩ => rfl
    | ⟨1, _⟩ => rfl
  · refine broadcastInDim_apply _ _ _ _ (ix1 ⟨(i 1).val, idx2_lt1 i⟩) fun a => ?_
    match a with
    | ⟨0, _⟩ => rfl

/-- The first cut: the bias added to every row, cut off below at zero. -/
theorem relu1_eq (a : (⟨S100000x64, .f32⟩ : BufTy).Contents (Elt Ideal)) (b : (⟨S64, .f32⟩ : BufTy).Contents (Elt Ideal)) :
    Stages.relu1 (F := Ideal) a b = Rows.reluRows a b := by
  funext i
  show max (a i + broadcastInDim S100000x64 ![0, 1] bcast_S1x64_S100000x64_0_1 (broadcastInDim S1x64 ![1] bcast_S64_S1x64_1 b) i)
      (Ideal.ofBits .f32 0x00000000#32) = _
  rw [stretch64]
  rfl

/-- The comparison "at least" of two extended reals in that order answers the bit one. -/
theorem cmp_oge_of_le {x z : EReal} (h : z ≤ x) : Ideal.cmp .oge x z = 1#1 := by
  simp [Ideal.cmp, h]

/-- The second cut changes nothing after the first: every entry is already at least zero. -/
theorem act_eq (a : (⟨S100000x64, .f32⟩ : BufTy).Contents (Elt Ideal)) (b : (⟨S64, .f32⟩ : BufTy).Contents (Elt Ideal)) :
    Stages.leaky (F := Ideal) (Stages.relu1 a b) = Rows.reluRows a b := by
  rw [relu1_eq]
  funext i
  show Scalar.select (Ideal.cmp .oge (Rows.reluRows a b i) (Ideal.ofBits .f32 0x00000000#32)) (Rows.reluRows a b i) _ = _
  rw [cmp_oge_of_le (Rows.zero_le_reluRows a b i), select_one]

/-- The last step: the bias added to every row. -/
theorem fin_eq (a' : (⟨S100000x32, .f32⟩ : BufTy).Contents (Elt Ideal)) (b' : (⟨S32, .f32⟩ : BufTy).Contents (Elt Ideal)) :
    Stages.bias2 (F := Ideal) a' b' = Rows.addRows a' b' := by
  funext i
  show a' i + broadcastInDim S100000x32 ![0, 1] bcast_S1x32_S100000x32_0_1 (broadcastInDim S1x32 ![1] bcast_S32_S1x32_1 b') i = _
  rw [stretch32]
  rfl

end Cert.ReferenceIdeal.RefRows

end
-- ==== Proof.Bridge.lean ====
/-
  The two programs compute one function.

  The host stages of the kernel's program (endpoint lists, message weights, per-message factors, the two
  aggregations) are the reference's, operation for operation.  A change of float format is the identity on the
  extended reals.  The kernel's row-tiled products onto a zero accumulator and the reference's contractions are both
  the product array, a sum over l of left (p, l) * right (l, q): only the grouping of the rows differs.  The kernel's
  first bias step is max(a + b, zero) at every entry; the reference computes the same and then keeps every entry that
  is at least zero, which all of them are, so its second cut changes nothing.  The last bias step is a + b on both
  sides.  No step uses a cancellation or a distributive law, so nothing here needs the inputs to be finite.
-/
import proofs.«113970_j5162550690524_1_alg».proof.Proof.Stages
import proofs.«113970_j5162550690524_1_alg».proof.Proof.KStages
import proofs.«113970_j5162550690524_1_alg».proof.Proof.RefDots
import proofs.«113970_j5162550690524_1_alg».proof.Proof.RefRows

noncomputable section

namespace Cert.Bridge

open Idealize.ShloMosaic

/-! ## The kernel program's host stages are the reference's -/

section Stages
variable {F : FTy → Type} [FloatOps F]

theorem ends0_eq (ei : (⟨Cert.KernelIdeal.S2x1600000, .i32⟩ : BufTy).Contents (Elt F)) :
    Cert.KernelIdeal.KStages.ends0 ei = Cert.ReferenceIdeal.Stages.ends0 ei := rfl
theorem ends1_eq (ei : (⟨Cert.KernelIdeal.S2x1600000, .i32⟩ : BufTy).Contents (Elt F)) :
    Cert.KernelIdeal.KStages.ends1 ei = Cert.ReferenceIdeal.Stages.ends1 ei := rfl
theorem wts_eq (ew : (⟨Cert.KernelIdeal.S1600000, .f32⟩ : BufTy).Contents (Elt F)) :
    Cert.KernelIdeal.KStages.wts ew = Cert.ReferenceIdeal.Stages.wts ew := rfl
theorem nrm_eq (s d : (⟨Cert.KernelIdeal.S1700000, .i32⟩ : BufTy).Contents (Elt F))
    (w : (⟨Cert.KernelIdeal.S1700000, .f32⟩ : BufTy).Contents (Elt F)) :
    Cert.KernelIdeal.KStages.nrm s d w = Cert.ReferenceIdeal.Stages.nrm s d w := rfl
theorem agg64_eq (h : (⟨Cert.KernelIdeal.S100000x64, .f32⟩ : BufTy).Contents (Elt F))
    (s d : (⟨Cert.KernelIdeal.S1700000, .i32⟩ : BufTy).Contents (Elt F))
    (n : (⟨Cert.KernelIdeal.S1700000, .f32⟩ : BufTy).Contents (Elt F)) :
    Cert.KernelIdeal.KStages.agg64 h s d n = Cert.ReferenceIdeal.Stages.agg64 h s d n := rfl
theorem agg32_eq (h : (⟨Cert.KernelIdeal.S100000x32, .f32⟩ : BufTy).Contents (Elt F))
    (s d : (⟨Cert.KernelIdeal.S1700000, .i32⟩ : BufTy).Contents (Elt F))
    (n : (⟨Cert.KernelIdeal.S1700000, .f32⟩ : BufTy).Contents (Elt F)) :
    Cert.KernelIdeal.KStages.agg32 h s d n = Cert.ReferenceIdeal.Stages.agg32 h s d n := rfl

end Stages

/-! ## A change of float format is the identity on the extended reals -/

theorem trunc_id {S : Shape} (x : FVec Ideal S .f32) : (truncf .bf16 x (by decide) : S.Idx → EReal) = x := rfl

/-! ## The whole network -/

open Cert.ReferenceIdeal in
/-- The kernel's composition of its four regions with the host stages between them is the reference's result. -/
theorem kernel_eq_out
    (x : (⟨Cert.KernelIdeal.S100000x128, .f32⟩ : BufTy).Contents (Elt Ideal)) (ei : (⟨Cert.KernelIdeal.S2x1600000, .i32⟩ : BufTy).Contents (Elt Ideal))
    (ew : (⟨Cert.KernelIdeal.S1600000, .f32⟩ : BufTy).Contents (Elt Ideal)) (w1 : (⟨Cert.KernelIdeal.S128x64, .f32⟩ : BufTy).Contents (Elt Ideal))
    (b1 : (⟨Cert.KernelIdeal.S64, .f32⟩ : BufTy).Contents (Elt Ideal)) (w2 : (⟨Cert.KernelIdeal.S64x32, .f32⟩ : BufTy).Contents (Elt Ideal))
    (b2 : (⟨Cert.KernelIdeal.S32, .f32⟩ : BufTy).Contents (Elt Ideal)) :
    Rows.addRows
        (Cert.KernelIdeal.KStages.agg32
          (MatProd.mm
            (truncf (F := Ideal) (φ := .f32) .bf16
              (Rows.reluRows
                (Cert.KernelIdeal.KStages.agg64
                  (MatProd.mm (truncf (F := Ideal) (φ := .f32) .bf16 x (by decide)) (truncf (F := Ideal) (φ := .f32) .bf16 w1 (by decide)))
                  (Cert.KernelIdeal.KStages.ends0 ei) (Cert.KernelIdeal.KStages.ends1 ei)
                  (Cert.KernelIdeal.KStages.nrm (Cert.KernelIdeal.KStages.ends0 ei) (Cert.KernelIdeal.KStages.ends1 ei)
                    (Cert.KernelIdeal.KStages.wts ew)))
                b1) (by decide))
            (truncf (F := Ideal) (φ := .f32) .bf16 w2 (by decide)))
          (Cert.KernelIdeal.KStages.ends0 ei) (Cert.KernelIdeal.KStages.ends1 ei)
          (Cert.KernelIdeal.KStages.nrm (Cert.KernelIdeal.KStages.ends0 ei) (Cert.KernelIdeal.KStages.ends1 ei)
            (Cert.KernelIdeal.KStages.wts ew)))
        b2
      = Stages.out (F := Ideal) x ei ew w1 b1 w2 b2 := by
  unfold Stages.out Stages.net
  simp only [RefDots.dot1_mm, RefDots.dot2_mm, RefRows.act_eq, RefRows.fin_eq]
  rw [agg32_eq, agg64_eq, nrm_eq, ends0_eq, ends1_eq, wts_eq]
  rfl

end Cert.Bridge

end
-- ==== Proof.RefRun.lean ====
/-
  The reference as one straight line of array operations, and what it leaves in memory.

  The reference's main function is printed as two consecutive windows; three of its steps are calls of small
  helper functions (a masked choice, a cut at zero, and a cut that keeps a hundredth of the negative part).  A call
  means the helper's body run on the call's own buffers, so the whole function is one list of array operations:
  the helper bodies are written out at their call sites.  Run from any memory, every buffer ends at the fold of
  these operations over what the memory held at the start.  Read at the result buffer, that fold is the network
  of the stage-by-stage description, applied to the seven argument arrays; read at an argument buffer it is what
  was there, because no operation writes an argument.

  The list is kept in two halves, one per printed window.  The first half ends with the first layer's sum plus
  bias; the second half needs from the first only that array, the two endpoint lists and the message factors, so
  each half is read back on its own from an arbitrary starting memory and the two readings are composed.
-/
import proofs.«113970_j5162550690524_1_alg».proof.Proof.Stages
import Idealize.ShloMosaic.Lib.StableHlo.Run
import Idealize.ShloMosaic.Lib.Pipeline.Frame
import Idealize.ShloMosaic.PureOps.Ideal

noncomputable section

namespace Cert.ReferenceIdeal.RefRun

open Idealize.ShloMosaic Idealize.ShloMosaic.TcCoe Idealize.SL.Sem Cert.ReferenceIdeal Cert.ReferenceIdeal.Facts₀

variable {F : FTy → Type} [FloatOps F]

/-- The operations of the first window, in order; the masked choice's three steps stand where it is called. -/
abbrev ops0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v13 : StableHlo.TRef sig ⟨S100000, .i1⟩) (.of main_v14 : StableHlo.TRef sig ⟨S100000, .f32⟩) (.of main_call0_v1 : StableHlo.TRef sig ⟨S100000, .f32⟩) (.of main_v15 : StableHlo.TRef sig ⟨S100000, .f32⟩) select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v3 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v18 (broadcastInDim S1700000 ![] bcast_S_S1700000 : (⟨S_, .i32⟩ : BufTy).Contents (Elt F) → (⟨S1700000, .i32⟩ : BufTy).Contents (Elt F)),
    StableHlo.binary main_v3 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v8 main_v23 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)),
    StableHlo.binary main_arg0 main_arg3 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_c_6 (constantI S_ 32 0#32),
    StableHlo.unary main_c_6 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v31 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    StableHlo.nullary main_cst_8 (constant S_ .f32 0x00000000#32),
    StableHlo.unary main_cst_8 main_v43 (broadcastInDim S100000x64 ![] bcast_S_S100000x64 : (⟨S_, .f32⟩ : BufTy).Contents (Elt F) → (⟨S100000x64, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg4 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)),
    StableHlo.binary main_v45 main_v47 main_v48 (addf : (⟨S100000x64, .f32⟩ : BufTy).Contents (Elt F) → (⟨S100000x64, .f32⟩ : BufTy).Contents (Elt F) → (⟨S100000x64, .f32⟩ : BufTy).Contents (Elt F)) ]

/-- The operations of the second window, in order; the two cuts' steps (three and seven) stand where they are called. -/
abbrev ops1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v48 : StableHlo.TRef sig ⟨S100000x64, .f32⟩) (.of main_call1_v0 : StableHlo.TRef sig ⟨S100000x64, .f32⟩) (.of main_v49 : StableHlo.TRef sig ⟨S100000x64, .f32⟩) maximumf,
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x64, .f32⟩) (broadcastInDim S100000x64 ![] bcast_S_S100000x64),
    StableHlo.TRef.binary (.of main_v49 : StableHlo.TRef sig ⟨S100000x64, .f32⟩) (.of main_call2_v0 : StableHlo.TRef sig ⟨S100000x64, .f32⟩) (.of main_call2_v1 : StableHlo.TRef sig ⟨S100000x64, .i1⟩) (cmpf .oge),
    StableHlo.TRef.nullary (.of main_call2_cst_0 : StableHlo.TRef sig ⟨S_, .f32⟩) (constant S_ .f32 0x3C23D70A#32),
    StableHlo.TRef.unary (.of main_call2_cst_0 : StableHlo.TRef sig ⟨S_, .f32⟩) (.of main_call2_v2 : StableHlo.TRef sig ⟨S100000x64, .f32⟩) (broadcastInDim S100000x64 ![] bcast_S_S100000x64),
    StableHlo.TRef.binary (.of main_call2_v2 : StableHlo.TRef sig ⟨S100000x64, .f32⟩) (.of main_v49 : StableHlo.TRef sig ⟨S100000x64, .f32⟩) (.of main_call2_v3 : StableHlo.TRef sig ⟨S100000x64, .f32⟩) mulf,
    StableHlo.TRef.ternary (.of main_call2_v1 : StableHlo.TRef sig ⟨S100000x64, .i1⟩) (.of main_v49 : StableHlo.TRef sig ⟨S100000x64, .f32⟩) (.of main_call2_v3 : StableHlo.TRef sig ⟨S100000x64, .f32⟩) (.of main_v50 : StableHlo.TRef sig ⟨S100000x64, .f32⟩) select,
    StableHlo.binary main_v50 main_arg5 main_v51 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.nullary main_c_9 (constantI S_ 32 0#32),
    StableHlo.unary main_c_9 main_v52 (broadcastInDim S1700000 ![] bcast_S_S1700000 : (⟨S_, .i32⟩ : BufTy).Contents (Elt F) → (⟨S1700000, .i32⟩ : BufTy).Contents (Elt F)),
    StableHlo.binary main_v3 main_v52 main_v53 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v54 (broadcastInDim S1700000 ![] bcast_S_S1700000 : (⟨S_, .i32⟩ : BufTy).Contents (Elt F) → (⟨S1700000, .i32⟩ : BufTy).Contents (Elt F)),
    StableHlo.binary main_v3 main_v54 main_v55 (addi : (⟨S1700000, .i32⟩ : BufTy).Contents (Elt F) → (⟨S1700000, .i32⟩ : BufTy).Contents (Elt F) → (⟨S1700000, .i32⟩ : BufTy).Contents (Elt F)),
    StableHlo.ternary main_v53 main_v55 main_v3 main_v56 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v56 main_v57 (broadcastInDim S1700000x1 ![0] bcast_S1700000_S1700000x1_0 : (⟨S1700000, .i32⟩ : BufTy).Contents (Elt F) → (⟨S1700000x1, .i32⟩ : BufTy).Contents (Elt F)),
    StableHlo.binary main_v51 main_v57 main_v58 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v31 main_v59 (broadcastInDim S1700000x1 ![0] bcast_S1700000_S1700000x1_0 : (⟨S1700000, .f32⟩ : BufTy).Contents (Elt F) → (⟨S1700000x1, .f32⟩ : BufTy).Contents (Elt F)),
    StableHlo.unary main_v59 main_v60 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v58 main_v60 main_v61 (mulf : (⟨S1700000x32, .f32⟩ : BufTy).Contents (Elt F) → (⟨S1700000x32, .f32⟩ : BufTy).Contents (Elt F) → (⟨S1700000x32, .f32⟩ : BufTy).Contents (Elt F)),
    StableHlo.nullary main_cst_11 (constant S_ .f32 0x00000000#32),
    StableHlo.unary main_cst_11 main_v62 (broadcastInDim S100000x32 ![] bcast_S_S100000x32 : (⟨S_, .f32⟩ : BufTy).Contents (Elt F) → (⟨S100000x32, .f32⟩ : BufTy).Contents (Elt F)),
    StableHlo.unary main_v6 main_v63 (broadcastInDim S1700000x1 ![0] bcast_S1700000_S1700000x1_0 : (⟨S1700000, .i32⟩ : BufTy).Contents (Elt F) → (⟨S1700000x1, .i32⟩ : BufTy).Contents (Elt F)),
    StableHlo.ternary main_v62 main_v63 main_v61 main_v64 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg6 main_v65 (broadcastInDim S1x32 ![1] bcast_S32_S1x32_1 : (⟨S32, .f32⟩ : BufTy).Contents (Elt F) → (⟨S1x32, .f32⟩ : BufTy).Contents (Elt F)),
    StableHlo.unary main_v65 main_v66 (broadcastInDim S100000x32 ![0, 1] bcast_S1x32_S100000x32_0_1 : (⟨S1x32, .f32⟩ : BufTy).Contents (Elt F) → (⟨S100000x32, .f32⟩ : BufTy).Contents (Elt F)),
    StableHlo.binary main_v64 main_v66 main_v67 (addf : (⟨S100000x32, .f32⟩ : BufTy).Contents (Elt F) → (⟨S100000x32, .f32⟩ : BufTy).Contents (Elt F) → (⟨S100000x32, .f32⟩ : BufTy).Contents (Elt F)) ]

/-- All the operations of the reference, in order. -/
abbrev ops : List (HloOp τ sig (Elt F)) := ops0 ++ ops1

set_option maxRecDepth 8192 in
set_option maxHeartbeats 4000000 in
/-- The first window is the straight line of its operations: the helper's definition unfolds at its call and
    sequencing reassociates, both by computation. -/
theorem main_part0_eq (c : Dev nD) : main_part0 (F := F) c = StableHlo.seq ops0 := rfl

set_option maxRecDepth 8192 in
set_option maxHeartbeats 4000000 in
/-- The second window likewise. -/
theorem main_part1_eq (c : Dev nD) : main_part1 (F := F) c = StableHlo.seq ops1 := rfl

/-- The whole function is the two windows one after the other, hence the straight line of all the operations. -/
theorem main_eq (c : Dev nD) : main (F := F) c = StableHlo.seq ops := by
  simp only [ops, StableHlo.seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
set_option maxRecDepth 8192 in
theorem ops1_sub : (ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
/-- Every operation touches buffers of the one core only. -/
theorem ops_sub : (ops : List (HloOp τ sig (Elt F))).Forall fun op => op.bufs ⊆ StableHlo.tcRefs τ sig :=
  List.forall_iff_forall_mem.mpr fun op h => by
    simp only [ops, List.mem_append] at h
    rcases h with h | h
    exacts [List.forall_iff_forall_mem.mp ops0_sub op h, List.forall_iff_forall_mem.mp ops1_sub op h]

/-! ## What each half leaves, from any starting contents

The fold is unrolled one operation at a time: at the buffer an operation writes it gives the operation's
function of what its operands held, and at every other buffer what was there.  What remains is an equation
between two spellings of one composition of array functions, closed by computation.  The heavy array
functions (the scatter-sum, the gathers, the reciprocal root, the joining of two arrays)
are kept closed meanwhile: the equation never looks inside them. -/

section ReadBack

attribute [local irreducible] Host.scatterAdd Host.gather Host.rsqrt concatenate

set_option maxRecDepth 8192 in
/-- After the first half, the source list: row 0 of the edge array followed by the self loops. -/
theorem first_v3 (V : Valuation τ sig (Elt F)) :
    StableHlo.after ops0 V (main_v3 : DevRef τ sig) = Stages.ends0 (V (main_arg1 : DevRef τ sig)) := by
  generalize hR : Stages.ends0 (V (main_arg1 : DevRef τ sig)) = R
  after_results_simp
  subst hR
  rfl

set_option maxRecDepth 8192 in
/-- After the first half, the target list. -/
theorem first_v6 (V : Valuation τ sig (Elt F)) :
    StableHlo.after ops0 V (main_v6 : DevRef τ sig) = Stages.ends1 (V (main_arg1 : DevRef τ sig)) := by
  generalize hR : Stages.ends1 (V (main_arg1 : DevRef τ sig)) = R
  after_results_simp
  subst hR
  rfl

set_option maxRecDepth 8192 in
set_option maxHeartbeats 4000000 in
/-- After the first half, the factor of every message. -/
theorem first_v31 (V : Valuation τ sig (Elt F)) :
    StableHlo.after ops0 V (main_v31 : DevRef τ sig)
      = Stages.nrm (Stages.ends0 (V (main_arg1 : DevRef τ sig))) (Stages.ends1 (V (main_arg1 : DevRef τ sig))) (Stages.wts (V (main_arg2 : DevRef τ sig))) := by
  generalize hR : Stages.nrm (Stages.ends0 (V (main_arg1 : DevRef τ sig))) (Stages.ends1 (V (main_arg1 : DevRef τ sig))) (Stages.wts (V (main_arg2 : DevRef τ sig))) = R
  after_results_simp
  subst hR
  rfl

set_option maxRecDepth 8192 in
set_option maxHeartbeats 4000000 in
/-- After the first half, the first layer's sum with the bias row added to every row. -/
theorem first_v48 (V : Valuation τ sig (Elt F)) :
    StableHlo.after ops0 V (main_v48 : DevRef τ sig)
      = addf
          (Stages.agg64 (Host.dotGeneral dot_S100000x128_S128x64_S100000x64_1_0_0_1_n_n none (V (main_arg0 : DevRef τ sig)) (V (main_arg3 : DevRef τ sig)))
            (Stages.ends0 (V (main_arg1 : DevRef τ sig))) (Stages.ends1 (V (main_arg1 : DevRef τ sig)))
            (Stages.nrm (Stages.ends0 (V (main_arg1 : DevRef τ sig))) (Stages.ends1 (V (main_arg1 : DevRef τ sig))) (Stages.wts (V (main_arg2 : DevRef τ sig)))))
          (broadcastInDim S100000x64 ![0, 1] bcast_S1x64_S100000x64_0_1 (broadcastInDim S1x64 ![1] bcast_S64_S1x64_1 (V (main_arg4 : DevRef τ sig)))) := by
  generalize hR : addf
          (Stages.agg64 (Host.dotGeneral dot_S100000x128_S128x64_S100000x64_1_0_0_1_n_n none (V (main_arg0 : DevRef τ sig)) (V (main_arg3 : DevRef τ sig)))
            (Stages.ends0 (V (main_arg1 : DevRef τ sig))) (Stages.ends1 (V (main_arg1 : DevRef τ sig)))
            (Stages.nrm (Stages.ends0 (V (main_arg1 : DevRef τ sig))) (Stages.ends1 (V (main_arg1 : DevRef τ sig))) (Stages.wts (V (main_arg2 : DevRef τ sig)))))
          (broadcastInDim S100000x64 ![0, 1] bcast_S1x64_S100000x64_0_1 (broadcastInDim S1x64 ![1] bcast_S64_S1x64_1 (V (main_arg4 : DevRef τ sig)))) = R
  after_results_simp
  subst hR
  rfl

set_option maxRecDepth 8192 in
/-- The first half writes no argument. -/
theorem first_arg0 (V : Valuation τ sig (Elt F)) :
    StableHlo.after ops0 V (main_arg0 : DevRef τ sig) = (V (main_arg0 : DevRef τ sig)) := by
  after_results_simp

set_option maxRecDepth 8192 in
/-- The first half writes no argument. -/
theorem first_arg1 (V : Valuation τ sig (Elt F)) :
    StableHlo.after ops0 V (main_arg1 : DevRef τ sig) = (V (main_arg1 : DevRef τ sig)) := by
  after_results_simp

set_option maxRecDepth 8192 in
/-- The first half writes no argument. -/
theorem first_arg2 (V : Valuation τ sig (Elt F)) :
    StableHlo.after ops0 V (main_arg2 : DevRef τ sig) = (V (main_arg2 : DevRef τ sig)) := by
  after_results_simp

set_option maxRecDepth 8192 in
/-- The first half writes no argument. -/
theorem first_arg3 (V : Valuation τ sig (Elt F)) :
    StableHlo.after ops0 V (main_arg3 : DevRef τ sig) = (V (main_arg3 : DevRef τ sig)) := by
  after_results_simp

set_option maxRecDepth 8192 in
/-- The first half writes no argument. -/
theorem first_arg4 (V : Valuation τ sig (Elt F)) :
    StableHlo.after ops0 V (main_arg4 : DevRef τ sig) = (V (main_arg4 : DevRef τ sig)) := by
  after_results_simp

set_option maxRecDepth 8192 in
/-- The first half writes no argument. -/
theorem first_arg5 (V : Valuation τ sig (Elt F)) :
    StableHlo.after ops0 V (main_arg5 : DevRef τ sig) = (V (main_arg5 : DevRef τ sig)) := by
  after_results_simp

set_option maxRecDepth 8192 in
/-- The first half writes no argument. -/
theorem first_arg6 (V : Valuation τ sig (Elt F)) :
    StableHlo.after ops0 V (main_arg6 : DevRef τ sig) = (V (main_arg6 : DevRef τ sig)) := by
  after_results_simp

set_option maxRecDepth 8192 in
set_option maxHeartbeats 4000000 in
/-- After the second half, from contents W: the result is the second layer applied to the doubly cut first-layer array. -/
theorem second_v67 (W : Valuation τ sig (Elt F)) :
    StableHlo.after ops1 W (main_v67 : DevRef τ sig)
      = Stages.bias2
          (Stages.agg32
            (Host.dotGeneral dot_S100000x64_S64x32_S100000x32_1_0_0_1_n_n none
              (Stages.leaky (maximumf (W (main_v48 : DevRef τ sig)) (broadcastInDim S100000x64 ![] bcast_S_S100000x64 (constant S_ .f32 0x00000000#32))))
              (W (main_arg5 : DevRef τ sig)))
            (W (main_v3 : DevRef τ sig)) (W (main_v6 : DevRef τ sig)) (W (main_v31 : DevRef τ sig)))
          (W (main_arg6 : DevRef τ sig)) := by
  generalize hR : Stages.bias2
          (Stages.agg32
            (Host.dotGeneral dot_S100000x64_S64x32_S100000x32_1_0_0_1_n_n none
              (Stages.leaky (maximumf (W (main_v48 : DevRef τ sig)) (broadcastInDim S100000x64 ![] bcast_S_S100000x64 (constant S_ .f32 0x00000000#32))))
              (W (main_arg5 : DevRef τ sig)))
            (W (main_v3 : DevRef τ sig)) (W (main_v6 : DevRef τ sig)) (W (main_v31 : DevRef τ sig)))
          (W (main_arg6 : DevRef τ sig)) = R
  after_results_simp
  subst hR
  rfl

set_option maxRecDepth 8192 in
/-- The second half writes no argument. -/
theorem second_arg0 (W : Valuation τ sig (Elt F)) :
    StableHlo.after ops1 W (main_arg0 : DevRef τ sig) = (W (main_arg0 : DevRef τ sig)) := by
  after_results_simp

set_option maxRecDepth 8192 in
/-- The second half writes no argument. -/
theorem second_arg1 (W : Valuation τ sig (Elt F)) :
    StableHlo.after ops1 W (main_arg1 : DevRef τ sig) = (W (main_arg1 : DevRef τ sig)) := by
  after_results_simp

set_option maxRecDepth 8192 in
/-- The second half writes no argument. -/
theorem second_arg2 (W : Valuation τ sig (Elt F)) :
    StableHlo.after ops1 W (main_arg2 : DevRef τ sig) = (W (main_arg2 : DevRef τ sig)) := by
  after_results_simp

set_option maxRecDepth 8192 in
/-- The second half writes no argument. -/
theorem second_arg3 (W : Valuation τ sig (Elt F)) :
    StableHlo.after ops1 W (main_arg3 : DevRef τ sig) = (W (main_arg3 : DevRef τ sig)) := by
  after_results_simp

set_option maxRecDepth 8192 in
/-- The second half writes no argument. -/
theorem second_arg4 (W : Valuation τ sig (Elt F)) :
    StableHlo.after ops1 W (main_arg4 : DevRef τ sig) = (W (main_arg4 : DevRef τ sig)) := by
  after_results_simp

set_option maxRecDepth 8192 in
/-- The second half writes no argument. -/
theorem second_arg5 (W : Valuation τ sig (Elt F)) :
    StableHlo.after ops1 W (main_arg5 : DevRef τ sig) = (W (main_arg5 : DevRef τ sig)) := by
  after_results_simp

set_option maxRecDepth 8192 in
/-- The second half writes no argument. -/
theorem second_arg6 (W : Valuation τ sig (Elt F)) :
    StableHlo.after ops1 W (main_arg6 : DevRef τ sig) = (W (main_arg6 : DevRef τ sig)) := by
  after_results_simp

end ReadBack

/-! ## The two halves composed -/

/-- The fold over the whole list is the second half's fold over the first half's. -/
theorem after_ops (V : Valuation τ sig (Elt F)) :
    StableHlo.after ops V = StableHlo.after ops1 (StableHlo.after ops0 V) :=
  StableHlo.after_append ops0 ops1 V

/-- From any starting contents the result buffer ends at the network of the stage-by-stage description, applied
    to what the seven argument buffers held: the second half's reading, with the four arrays it takes from the
    first half and the two arguments it reads replaced by the first half's readings. -/
theorem out_eq (V : Valuation τ sig (Elt F)) :
    StableHlo.after ops V (main_v67 : DevRef τ sig)
      = Stages.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [after_ops, second_v67, first_v48, first_v3, first_v6, first_v31, first_arg5, first_arg6]
  rfl

/-- No operation writes argument 0. -/
theorem arg0_eq (V : Valuation τ sig (Elt F)) :
    StableHlo.after ops V (main_arg0 : DevRef τ sig) = (V (main_arg0 : DevRef τ sig)) := by
  rw [after_ops, second_arg0, first_arg0]

/-- No operation writes argument 1. -/
theorem arg1_eq (V : Valuation τ sig (Elt F)) :
    StableHlo.after ops V (main_arg1 : DevRef τ sig) = (V (main_arg1 : DevRef τ sig)) := by
  rw [after_ops, second_arg1, first_arg1]

/-- No operation writes argument 2. -/
theorem arg2_eq (V : Valuation τ sig (Elt F)) :
    StableHlo.after ops V (main_arg2 : DevRef τ sig) = (V (main_arg2 : DevRef τ sig)) := by
  rw [after_ops, second_arg2, first_arg2]

/-- No operation writes argument 3. -/
theorem arg3_eq (V : Valuation τ sig (Elt F)) :
    StableHlo.after ops V (main_arg3 : DevRef τ sig) = (V (main_arg3 : DevRef τ sig)) := by
  rw [after_ops, second_arg3, first_arg3]

/-- No operation writes argument 4. -/
theorem arg4_eq (V : Valuation τ sig (Elt F)) :
    StableHlo.after ops V (main_arg4 : DevRef τ sig) = (V (main_arg4 : DevRef τ sig)) := by
  rw [after_ops, second_arg4, first_arg4]

/-- No operation writes argument 5. -/
theorem arg5_eq (V : Valuation τ sig (Elt F)) :
    StableHlo.after ops V (main_arg5 : DevRef τ sig) = (V (main_arg5 : DevRef τ sig)) := by
  rw [after_ops, second_arg5, first_arg5]

/-- No operation writes argument 6. -/
theorem arg6_eq (V : Valuation τ sig (Elt F)) :
    StableHlo.after ops V (main_arg6 : DevRef τ sig) = (V (main_arg6 : DevRef τ sig)) := by
  rw [after_ops, second_arg6, first_arg6]

/-! ## The run -/

set_option maxRecDepth 8192 in
theorem ops0_fresh : ∀ op ∈ (ops0 : List (HloOp τ sig (Elt F))), op.fresh = ∅ := by
  intro _ h; (repeat (cases h with | head => rfl | tail _ h => ?_)); exact nomatch h

set_option maxRecDepth 8192 in
theorem ops1_fresh : ∀ op ∈ (ops1 : List (HloOp τ sig (Elt F))), op.fresh = ∅ := by
  intro _ h; (repeat (cases h with | head => rfl | tail _ h => ?_)); exact nomatch h

/-- Every operation determines what it writes. -/
theorem ops_fresh : ∀ op ∈ (ops : List (HloOp τ sig (Elt F))), op.fresh = ∅ := by
  intro op h
  simp only [ops, List.mem_append] at h
  rcases h with h | h
  exacts [ops0_fresh op h, ops1_fresh op h]

set_option maxRecDepth 8192 in
set_option maxHeartbeats 4000000 in
/-- From any memory with all counters at zero, every weakly fair execution of the reference terminates; at the end
    the result buffer holds the network applied to what the argument buffers held at the start, and the argument
    buffers hold what they held. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v67) = Stages.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v67).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (StableHlo.run_seq scopedRefs_eq scopedSems_eq defs main (fun _ => ops) main_eq (fun _ => ops_sub) m ρ
      (fun _ => ops_fresh))

end Cert.ReferenceIdeal.RefRun

end
-- ==== Proof.lean ====
/-
  A two-layer graph convolution over 100 000 nodes and 1 700 000 messages (1 600 000 weighted edges and a self loop
  per node), as a kernel program and as a plain reference.

  Both programs compute, from the edge arrays, the same endpoint lists and per-message factors
  rsqrt(deg s) * w * rsqrt(deg d), and both run two layers "product with a weight matrix, send the rows along the
  messages scaled by the factor, sum at the targets, add a bias row".  The kernel program does the two products and
  the two bias steps on the device, ten blocks of 10 000 rows each, and everything between them on the host with the
  reference's own operations.  On the extended reals the comparison is: (1) a change of float format is the identity;
  (2) a row block of a product is the product of the row block, and a product onto a zero accumulator is the plain sum
  over the inner index, so the ten blocks together are the reference's one contraction; (3) max(a + b, zero) is at
  least zero at every entry, so the reference's further cut "keep what is at least zero, else a hundredth" keeps
  everything; (4) the last bias step is a + b on both sides.  None of these uses a cancellation or a distributive law,
  so the inputs' finiteness is never used.  The idealization rewrote no operation, so its conjunct is trivial; the
  three frames are the generated frames (the reference's is its run with the result dropped).
-/
import proofs.«113970_j5162550690524_1_alg».proof.Defs
import proofs.«113970_j5162550690524_1_alg».proof.Proof.Gen.Kernel
import proofs.«113970_j5162550690524_1_alg».proof.Proof.Gen.Kernel.Frame
import proofs.«113970_j5162550690524_1_alg».proof.Proof.Gen.KernelIdeal
import proofs.«113970_j5162550690524_1_alg».proof.Proof.Gen.KernelIdeal.Frame
import proofs.«113970_j5162550690524_1_alg».proof.Proof.Gen.ReferenceIdeal
import proofs.«113970_j5162550690524_1_alg».proof.Proof.Gen.Pre_finite_inputs
import proofs.«113970_j5162550690524_1_alg».proof.Proof.KRun
import proofs.«113970_j5162550690524_1_alg».proof.Proof.KValue
import proofs.«113970_j5162550690524_1_alg».proof.Proof.Reg0
import proofs.«113970_j5162550690524_1_alg».proof.Proof.Reg1
import proofs.«113970_j5162550690524_1_alg».proof.Proof.Reg2
import proofs.«113970_j5162550690524_1_alg».proof.Proof.Reg3
import proofs.«113970_j5162550690524_1_alg».proof.Proof.Bridge
import proofs.«113970_j5162550690524_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- What the kernel's result buffer holds at the end is the reference's function of the seven arguments: the four
    regions' values put through the host stages between them, then the comparison of the two spellings. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W10 (F := Ideal) m ρ c (Proc.devRef .tc Cert.KernelIdeal.main_v65)
      = Cert.ReferenceIdeal.Stages.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) :=
  (Cert.KernelIdeal.KValue.result (F := Ideal)
      (P0 := fun a b => MatProd.mm a b) (A1 := fun a b => Rows.reluRows a b)
      (P2 := fun a b => MatProd.mm a b) (A3 := fun a b => Rows.addRows a b)
      (fun V c => Cert.KernelIdeal.RegVal.reg0_val V c) (fun V c => Cert.KernelIdeal.RegVal.reg1_val V c)
      (fun V c => Cert.KernelIdeal.RegVal.reg2_val V c) (fun V c => Cert.KernelIdeal.RegVal.reg3_val V c) m ρ c).trans
    (Cert.Bridge.kernel_eq_out _ _ _ _ _ _ _)

/-- From memories agreeing on the arguments both programs end with the same result array. -/
theorem algebraic : Cert.algebraic_KernelIdeal_ReferenceIdeal := by
  intro m ρ m' ρ' _ hagree
  refine ⟨fun c => Cert.ReferenceIdeal.Stages.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun _ h c => ⟨(h c).1.trans (kernel_value m ρ c), (h c).2⟩)
      (Cert.KernelIdeal.KRun.run_main (F := Ideal) m ρ)
  · refine (θ_run Cert.ReferenceIdeal.defs _ _).mono (fun _ h c => ⟨(h c).1.trans ?_, (h c).2⟩)
      (Cert.ReferenceIdeal.RefRun.run m' ρ')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
